-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) (main_arg1 : FVec F S32x1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  main_v8
-- ==== Kernel.lean ====
abbrev S32x1024x1024 : Shape := ⟨3, ![32, 1024, 1024]⟩
abbrev S1x1024x128 : Shape := ⟨3, ![1, 1024, 128]⟩
abbrev S1x1024x1024 : Shape := ⟨3, ![1, 1024, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 10
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S32x1024x1024, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .bf16⟩
  | .local _ .vmem, ⟨9, _⟩ => ⟨S1024x1024, .bf16⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let c0_2 : Index := 0#32
  let arg1 : BitVec 32 := BitVec.ofNat 32 (i 1).val
  let c128_i32 : BitVec 32 := 128#32
  let v0 : BitVec 32 := Scalar.muli arg1 c128_i32
  let v1 : BitVec 32 := v0
  let v5 : Index := Scalar.indexCast v1
  ![0, v5.toNat]
def k0_cond1 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32 : BitVec 32 := 0#32
  let v18 : BitVec 1 := Scalar.cmpi .ne v17 c0_i32
  v18

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  reduces_S1024x1024_S1024_2 : S1024x1024.Reduces [0] S1024
  shapeCasts_S1024_S1x1024 : S1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  dot_S1024x1024_S1024x1024_S1024x1024_0_0_1_1_n_n_wf : DotDims.WF S1024x1024 S1024x1024 S1024x1024 [0] [0] [1] [1] [] []
  hrank0 : 0 < grid0.rank
  k0_mult1_dvd : ∀ i : grid0.Coords, 128 ∣ (k0_mult1 i).toNat
  k0_off1_inb : ∀ i : grid0.Coords, ∀ a, (k0_off1 i) a + S1024x128.size a ≤ S1024x1024.size a
  k0_off1_packedbf16 : ∀ i : grid0.Coords, (Rect.unit (s := S1024x1024) (k0_off1 i) S1024x128.size (k0_off1_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x1024x1024.size a
  hwx0_0 : ∀ i : grid0.Coords, EltTy.bits .f32 = 32 ∨ (Rect.block (s := S32x1024x1024) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x1024x1024.size a
  hwx0_1 : ∀ i : grid0.Coords, EltTy.bits .f32 = 32 ∨ (Rect.block (s := S32x1024x1024) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x1024x1024.size a
  hwx0_2 : ∀ i : grid0.Coords, EltTy.bits .f32 = 32 ∨ (Rect.block (s := S32x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S32x1024x1024.size a
  hwx0_3 : ∀ i : grid0.Coords, EltTy.bits .f32 = 32 ∨ (Rect.block (s := S32x1024x1024) S1x1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) | 3 => fun i => !(k0_cond1 i == 1#1) | ⟨_ + 4, h⟩ => absurd h (Nat.not_lt.2 (Nat.le_add_left _ _))

class Facts : Prop extends Facts₀ where

variable [Facts]
-- ==== ReferenceIdeal.lean ====
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩
abbrev S32x1x1024 : Shape := ⟨3, ![32, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S_, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S32x1024x1, .f32⟩
  | .hbm, ⟨9, _⟩ => ⟨S32x1024x1024, .f32⟩
  | .hbm, ⟨10, _⟩ => ⟨S32x1024x1024, .f32⟩
  | .hbm, ⟨11, _⟩ => ⟨S32x1024x1024, .f32⟩
  | .hbm, ⟨12, _⟩ => ⟨S_, .f32⟩
  | .hbm, ⟨13, _⟩ => ⟨S32x1024, .f32⟩
  | .hbm, ⟨14, _⟩ => ⟨S32x1024x1, .f32⟩
  | .hbm, ⟨15, _⟩ => ⟨S32x1024x1024, .f32⟩
  | .hbm, ⟨16, _⟩ => ⟨S32x1024x1024, .f32⟩
  | .hbm, ⟨17, _⟩ => ⟨S32x1024x1024, .f32⟩
  | .hbm, ⟨18, _⟩ => ⟨S_, .f32⟩
  | .hbm, ⟨19, _⟩ => ⟨S32x1024, .f32⟩
  | .hbm, ⟨20, _⟩ => ⟨S_, .f32⟩
  | .hbm, ⟨21, _⟩ => ⟨S32x1024, .f32⟩
  | .hbm, ⟨22, _⟩ => ⟨S32x1024, .f32⟩
  | .hbm, ⟨23, _⟩ => ⟨S32x1x1024, .f32⟩
  | .hbm, ⟨24, _⟩ => ⟨S32x1024x1024, .f32⟩
  | .hbm, ⟨25, _⟩ => ⟨S32x1024x1024, .f32⟩
  | .hbm, ⟨26, _⟩ => ⟨S32x1024x1024, .f32⟩
  | .hbm, ⟨27, _⟩ => ⟨S_, .f32⟩
  | .hbm, ⟨28, _⟩ => ⟨S32x1024, .f32⟩
  | .hbm, ⟨29, _⟩ => ⟨S32x1x1024, .f32⟩
  | .hbm, ⟨30, _⟩ => ⟨S32x1024x1024, .f32⟩
  | .hbm, ⟨31, _⟩ => ⟨S32x1024x1024, .f32⟩
  | .hbm, ⟨32, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  reducesTo_S32x1024x1024_S32x1024_d1 : S32x1024x1024.ReducesTo [1] S32x1024
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  dot_S32x1024x1024_S32x1024x1024_S32x1024x1024_2_2_1_1_0_0_wf : DotDims.WF S32x1024x1024 S32x1024x1024 S32x1024x1024 [2] [2] [1] [1] [0] [0]
  dot_S32x1024x1024_S32x1024x1024_S32x1024x1024_2_1_1_2_0_0_wf : DotDims.WF S32x1024x1024 S32x1024x1024 S32x1024x1024 [2] [1] [1] [2] [0] [0]
  dot_S32x1024x1024_S32x1024x1024_S32x1024x1024_1_1_2_2_0_0_wf : DotDims.WF S32x1024x1024 S32x1024x1024 S32x1024x1024 [1] [1] [2] [2] [0] [0]

variable [Facts₀]

def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S32x1024x1024_S32x1024x1024_S32x1024x1024_1_1_2_2_0_0 : DotDims S32x1024x1024 S32x1024x1024 S32x1024x1024 where
  lhsContracting := [1]
  rhsContracting := [1]
  lhsNonContracting := [2]
  rhsNonContracting := [2]
  lhsBatch := [0]
  rhsBatch := [0]
  wf := dot_S32x1024x1024_S32x1024x1024_S32x1024x1024_1_1_2_2_0_0_wf

class Facts : Prop extends Facts₀ where

variable [Facts]
-- ==== Proof.BitsSlabFill.lean ====
/-
  One grid point of the attention kernel, read as a step on its two scratch matrices.

  The grid is `(b, d)` with 32 batches and 8 chunks of 128 feature columns. At every point the body narrows
  the point's `[1024, 128]` chunk of each input and stores it over columns `[128·d, 128·d + 128)` of that input's
  `[1024, 1024]` scratch matrix; only at `d = 7` does it go on to read both scratch matrices whole and store the two
  attention results into the output buffers. Stated for any float instance.
-/
import proofs.«179597_j89472758710963_2_alg».proof.Proof.Gen.Kernel.Frame
import proofs.«179597_j89472758710963_2_alg».proof.Proof.Gen.Kernel.Skeleton
import Idealize.ShloMosaic.Lib.WritesUnit
import Idealize.ShloMosaic.Lib.Pipeline.Value
import Idealize.ShloMosaic.Lib.ValueIdx

set_option maxRecDepth 16384

noncomputable section

namespace Cert.Kernel.SlabFill

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Overwriting a band of columns

Each grid point `(b, d)` narrows its `[1024, 128]` chunk of the two inputs and stores it over columns
`[128·d, 128·d + 128)` of a `[1024, 1024]` scratch matrix, leaving the other columns as they were. -/

/-- `xs` with the `[1024, 128]` band at offsets `off` replaced by `w`: inside the band the entry of `w` at the
    index minus the offsets, outside it the old entry. -/
def bandPut (off : Fin 2 → ℕ) (xs : Vec F S1024x1024 .bf16) (w : Vec F S1024x128 .bf16) : Vec F S1024x1024 .bf16 :=
  fun y => if h : ∀ a, off a ≤ (y a).val ∧ (y a).val < off a + S1024x128.size a then
      w (Rect.unitLocal (s := S1024x1024) (off := off) (size := S1024x128.size) y h)
    else xs y

theorem zeros3 : (![0, 0, 0] : Fin 3 → ℕ) = fun _ => 0 := by
  funext a; match a with | ⟨0, _⟩ => rfl | ⟨1, _⟩ => rfl | ⟨2, _⟩ => rfl
theorem zeros2 : (![0, 0] : Fin 2 → ℕ) = fun _ => 0 := by
  funext a; match a with | ⟨0, _⟩ => rfl | ⟨1, _⟩ => rfl

/-- One store of a band over whole contents `xs` reads back as `bandPut`. -/
theorem read_band (v : Memref sig .tc .vmem S1024x1024 .bf16) (hv : v.IsWhole) (off : Fin 2 → ℕ)
    (inb : ∀ a, off a + S1024x128.size a ≤ S1024x1024.size a) (xs : Vec F S1024x1024 .bf16) (w : Vec F S1024x128 .bf16) :
    View.read (Elt F) v.view (v.view.writes (Elt F) (hv.unread xs) [(⟨Rect.unit off S1024x128.size inb, w⟩ : View.Piece (Elt F) S1024x1024 .bf16)])
      = bandPut off xs w := by
  funext y
  rw [View.read_writes_cons_unit v.view (hv.unread xs) inb w [] y rfl]
  unfold bandPut
  split
  · rfl
  · rw [View.writes_nil, hv.read_unread]

/-- A load of a whole `[1, 1024, 128]` buffer reads its contents. -/
theorem load_chunk (v : Memref sig .tc .vmem S1x1024x128 .f32) (hv : v.IsWhole) (x : Vec F S1x1024x128 .f32) :
    View.readAt (Elt F) v.view (Rect.unit (s := S1x1024x128) ![0, 0, 0] S1x1024x128.size inb_S1x1024x128_S1x1024x128_0_0_0).toLoadRect (hv.unread x) = x := by
  rw [View.readAt_eq_ld, hv.read_unread, View.ld_unit_zero zeros3]

/-- A load of a whole `[1024, 1024]` buffer reads what the buffer holds. -/
theorem load_mat (v : Memref sig .tc .vmem S1024x1024 .bf16) (g : v.view.ty.Contents (Elt F)) :
    View.readAt (Elt F) v.view (Rect.unit (s := S1024x1024) ![0, 0] S1024x1024.size inb_S1024x1024_S1024x1024_0_0).toLoadRect g = View.read (Elt F) v.view g := by
  rw [View.readAt_eq_ld, View.ld_unit_zero zeros2]

/-- One store through the whole `[1, 1024, 1024]` rectangle reads back as its payload, whatever was there. -/
theorem read_full (v : Memref sig .tc .vmem S1x1024x1024 .f32) (f : v.view.ty.Contents (Elt F)) (w : Vec F S1x1024x1024 .f32) :
    View.read (Elt F) v.view (v.view.writes (Elt F) f [(⟨Rect.unit (s := S1x1024x1024) ![0, 0, 0] S1x1024x1024.size inb_S1x1024x1024_S1x1024x1024_0_0_0, w⟩ : View.Piece (Elt F) S1x1024x1024 .f32)]) = w := by
  funext y
  exact View.read_writes_cons_unit_of_mem v.view f inb_S1x1024x1024_S1x1024x1024_0_0_0 w [] y y zeros3 (fun a => (Nat.zero_add _).symm)

/-! ## The body at one grid point -/

/-- The body's branch: taken at the last chunk of a batch. -/
abbrev lastChunk (i : grid0.Coords) : Prop := k0_cond1 i = 1#1

set_option maxHeartbeats 1000000 in
/-- Away from a batch's last chunk the body stores the two narrowed chunks over their bands of the two scratch
    matrices and touches nothing else: inputs and output buffers are handed back as found. -/
theorem body_fill (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1024x1024 .bf16) (harg6 : arg6.IsWhole) (arg7 : Memref sig .tc .vmem S1024x1024 .bf16) (harg7 : arg7.IsWhole) (hc0 : ¬lastChunk i)
    (x0 : Vec F S1x1024x128 .f32) (x1 : Vec F S1x1024x128 .f32) (xi2 xi3 : Vec F S1x1024x1024 .f32) (xs0 xs1 : Vec F S1024x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ owns (c : Thread nD τ) arg6 fullShare (bandPut (k0_off1 i) xs0 (k0_pay1 x0)) ∗ owns (c : Thread nD τ) arg7 fullShare (bandPut (k0_off1 i) xs1 (k0_pay2 x1))) -∗ K ⟨⟩))
          ⊢ wp frame (wpE (defs₀ (F := F)) Variants.none c none) E (cc0__attn_kernel i arg2 harg2 arg3 harg3 arg4 harg4 arg5 harg5 arg6 harg6 arg7 harg7) K := by
    intro E K
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; isplitr; swap; · iexact HS0
      ipureintro
      rw [load_chunk arg2 harg2 x0]
      exact read_band arg6 harg6 _ _ xs0 _
    iexists _; isplitr; swap; · iexact HS1
    ipureintro
    rw [load_chunk arg3 harg3 x1]
    exact read_band arg7 harg7 _ _ xs1 _

set_option maxHeartbeats 2000000 in
/-- At a batch's last chunk the body, after the same two band stores, reads both scratch matrices whole and stores
    the two attention results of those matrices over the whole of each output buffer. -/
theorem body_last (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1024x1024 .bf16) (harg6 : arg6.IsWhole) (arg7 : Memref sig .tc .vmem S1024x1024 .bf16) (harg7 : arg7.IsWhole) (hc0 : lastChunk i)
    (x0 : Vec F S1x1024x128 .f32) (x1 : Vec F S1x1024x128 .f32) (xi2 xi3 : Vec F S1x1024x1024 .f32) (xs0 xs1 : Vec F S1024x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare (k0_pay4 (bandPut (k0_off1 i) xs0 (k0_pay1 x0)) (bandPut (k0_off1 i) xs1 (k0_pay2 x1)))
                ∗ owns (c : Thread nD τ) arg5 fullShare (k0_pay5 (bandPut (k0_off1 i) xs0 (k0_pay1 x0)) (bandPut (k0_off1 i) xs1 (k0_pay2 x1)))
                ∗ owns (c : Thread nD τ) arg6 fullShare (bandPut (k0_off1 i) xs0 (k0_pay1 x0)) ∗ owns (c : Thread nD τ) arg7 fullShare (bandPut (k0_off1 i) xs1 (k0_pay2 x1))) -∗ K ⟨⟩))
          ⊢ wp frame (wpE (defs₀ (F := F)) Variants.none c none) E (cc0__attn_kernel i arg2 harg2 arg3 harg3 arg4 harg4 arg5 harg5 arg6 harg6 arg7 harg7) K := by
    intro E K
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0)
    sl_step
    have e0 : View.read (Elt F) arg6.view (arg6.view.writes (Elt F) (harg6.unread xs0) (body_last.sl.HS0_1 c i arg2 harg2 x0)) = bandPut (k0_off1 i) xs0 (k0_pay1 x0) := by
      sl_unfold_run_names
      rw [load_chunk arg2 harg2 x0]
      exact read_band arg6 harg6 _ _ xs0 _
    have e1 : View.read (Elt F) arg7.view (arg7.view.writes (Elt F) (harg7.unread xs1) (body_last.sl.HS1_1 c i arg3 harg3 x1)) = bandPut (k0_off1 i) xs1 (k0_pay2 x1) := by
      sl_unfold_run_names
      rw [load_chunk arg3 harg3 x1]
      exact read_band arg7 harg7 _ _ xs1 _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [read_full, load_mat, load_mat, e0, e1]
    isplitl [H3]
    · iexists _; isplitr; swap; · iexact H3
      ipureintro
      rw [read_full, load_mat, load_mat, e0, e1]
    isplitl [HS0]
    · iexists _; isplitr; swap; · iexact HS0
      ipureintro; exact e0
    iexists _; isplitr; swap; · iexact HS1
    ipureintro; exact e1

end Cert.Kernel.SlabFill

end
-- ==== Proof.BitsFillRun.lean ====
/-
  The attention kernel's run over its grid, with the two scratch matrices carried from point to point.

  Points are numbered `t = 8·b + d`. Before point `t` the two scratch matrices agree with batch `b`'s two narrowed
  inputs on the columns below `128·d` (the chunks already stored for this batch) and hold anything elsewhere. A
  point's band store extends that agreement by 128 columns; at `d = 7` both matrices are complete, so the two results
  the body then stores are the attention terms of batch `b`'s whole matrices, and the next point starts a new batch
  with nothing required. Stated for any float instance.
-/
import proofs.«179597_j89472758710963_2_alg».proof.Proof.BitsSlabFill

set_option maxRecDepth 16384

noncomputable section

namespace Cert.Kernel.SlabFill

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid, decided once -/

/-- The branch is taken exactly at the points `≡ 7 (mod 8)`: the last chunk of a batch. -/
theorem lastChunk_iff : ∀ t : Fin cfg0.N, lastChunk (grid0.coords t) ↔ t.val % 8 = 7 :=
  (by decide +kernel : ∀ t : Fin grid0.N, lastChunk (grid0.coords t) ↔ t.val % 8 = 7)
/-- The band starts at row 0 -/
theorem off_row : ∀ t : Fin cfg0.N, k0_off1 (grid0.coords t) (0 : Fin 2) = 0 :=
  (by decide +kernel : ∀ t : Fin grid0.N, k0_off1 (grid0.coords t) (0 : Fin 2) = 0)
/-- and at column `128·d`. -/
theorem off_col : ∀ t : Fin cfg0.N, k0_off1 (grid0.coords t) (1 : Fin 2) = 128 * (t.val % 8) :=
  (by decide +kernel : ∀ t : Fin grid0.N, k0_off1 (grid0.coords t) (1 : Fin 2) = 128 * (t.val % 8))
theorem live_in0 : ∀ t : Fin cfg0.N, cfg0.idle 0 (grid0.coords t) = false := by decide +kernel
theorem live_in1 : ∀ t : Fin cfg0.N, cfg0.idle 1 (grid0.coords t) = false := by decide +kernel
/-- Away from the last chunk the body stores nothing into the outputs, and they are not written back there. -/
theorem idle_out2 : ∀ t : Fin cfg0.N, ¬lastChunk (grid0.coords t) → cfg0.idle 2 (grid0.coords t) = true := by decide +kernel
theorem idle_out3 : ∀ t : Fin cfg0.N, ¬lastChunk (grid0.coords t) → cfg0.idle 3 (grid0.coords t) = true := by decide +kernel
theorem keep_out2 : ∀ t : Fin cfg0.N, ¬lastChunk (grid0.coords t) → (cfg0.win 2).flush t = false := by decide +kernel
theorem keep_out3 : ∀ t : Fin cfg0.N, ¬lastChunk (grid0.coords t) → (cfg0.win 3).flush t = false := by decide +kernel
/-- At the last chunk both outputs are stored. -/
theorem live_out2 : ∀ t : Fin cfg0.N, lastChunk (grid0.coords t) → cfg0.idle 2 (grid0.coords t) = false := by decide +kernel
theorem live_out3 : ∀ t : Fin cfg0.N, lastChunk (grid0.coords t) → cfg0.idle 3 (grid0.coords t) = false := by decide +kernel

/-! ## Buffers -/

abbrev stg0 (t : Fin cfg0.N) : Memref sig .tc .vmem S1x1024x128 .f32 := win0_0.stage (cfg0.slots t 0)
abbrev stg1 (t : Fin cfg0.N) : Memref sig .tc .vmem S1x1024x128 .f32 := win0_1.stage (cfg0.slots t 1)
abbrev stg2 (t : Fin cfg0.N) : Memref sig .tc .vmem S1x1024x1024 .f32 := win0_2.stage (cfg0.slots t 2)
abbrev stg3 (t : Fin cfg0.N) : Memref sig .tc .vmem S1x1024x1024 .f32 := win0_3.stage (cfg0.slots t 3)
/-- The two scratch matrices. -/
abbrev scr0 : Memref sig .tc .vmem S1024x1024 .bf16 := Memref.whole cc0_scratch0
abbrev scr1 : Memref sig .tc .vmem S1024x1024 .bf16 := Memref.whole cc0_scratch1

/-- What the region hands the body beside the windows: the two scratch matrices at some contents, and the
    generator register. -/
theorem PhiA_scratch (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## A batch's matrix, assembled from its eight chunks -/

theorem point_lt (k : ℕ) : k % 256 < cfg0.N := by
  show _ < grid0.N; rw [N_0]; exact Nat.mod_lt _ (by norm_num)

/-- The `[1024, 1024]` matrix whose columns `[128·d, 128·d + 128)` are the chunk of point `8·b + d`. -/
def matOf (chunk : Fin cfg0.N → Vec F S1024x128 .bf16) (b : ℕ) : Vec F S1024x1024 .bf16 :=
  fun y => chunk ⟨(8 * b + (y 1).val / 128) % 256, point_lt _⟩
    (ix2 (n0 := 1024) (n1 := 128) (y 0) ⟨(y 1).val % 128, Nat.mod_lt _ (by norm_num)⟩)

/-- A band store at point `t` over a matrix that agrees with the batch's on the columns below `128·d` agrees with it
    on the columns below `128·d + 128`. -/
theorem bandPut_matOf (chunk : Fin cfg0.N → Vec F S1024x128 .bf16) (t : Fin cfg0.N) (s : Vec F S1024x1024 .bf16)
    (hs : ∀ y : S1024x1024.Idx, (y 1).val < 128 * (t.val % 8) → s y = matOf chunk (t.val / 8) y)
    (y : S1024x1024.Idx) (hy : (y 1).val < 128 * (t.val % 8) + 128) :
    bandPut (k0_off1 (grid0.coords t)) s (chunk t) y = matOf chunk (t.val / 8) y := by
  have hN : t.val < 256 := lt_of_lt_of_eq t.isLt N_0
  have hy0 : (y 0).val < 1024 := (y 0).isLt
  have hy1 : (y 1).val < 1024 := (y 1).isLt
  unfold bandPut
  split
  · rename_i h
    have h1 : k0_off1 (grid0.coords t) (1 : Fin 2) ≤ (y 1).val ∧ (y 1).val < k0_off1 (grid0.coords t) (1 : Fin 2) + 128 := h 1
    rw [off_col t] at h1
    unfold matOf
    have ht : (⟨(8 * (t.val / 8) + (y 1).val / 128) % 256, point_lt _⟩ : Fin cfg0.N) = t :=
      Fin.ext (by show (8 * (t.val / 8) + (y 1).val / 128) % 256 = t.val; omega)
    rw [ht]
    refine congrArg (chunk t) (funext fun a => Fin.ext ?_)
    match a with
    | ⟨0, _⟩ =>
      show (y 0).val - k0_off1 (grid0.coords t) (0 : Fin 2) = (y 0).val
      rw [off_row t]; omega
    | ⟨1, _⟩ =>
      show (y 1).val - k0_off1 (grid0.coords t) (1 : Fin 2) = (y 1).val % 128
      rw [off_col t]; omega
  · rename_i h
    refine hs y ?_
    by_contra hc
    refine h fun a => ?_
    match a with
    | ⟨0, _⟩ =>
      show k0_off1 (grid0.coords t) (0 : Fin 2) ≤ (y 0).val ∧ (y 0).val < k0_off1 (grid0.coords t) (0 : Fin 2) + 1024
      rw [off_row t]; omega
    | ⟨1, _⟩ =>
      show k0_off1 (grid0.coords t) (1 : Fin 2) ≤ (y 1).val ∧ (y 1).val < k0_off1 (grid0.coords t) (1 : Fin 2) + 128
      rw [off_col t]; omega

variable (m : (ℓ : Loc nD τ sig) → Buf (Elt F) ℓ) (ρ : Dev nD → PrngReg)

/-- The narrowed chunk of each input that point `t` stores. -/
def pChunk (c : Dev nD) (t : Fin cfg0.N) : Vec F S1024x128 .bf16 := k0_pay1 (iblk m c 0 t)
def hChunk (c : Dev nD) (t : Fin cfg0.N) : Vec F S1024x128 .bf16 := k0_pay2 (iblk m c 1 t)

/-- Batch `b`'s two narrowed matrices. -/
def pMat (c : Dev nD) (b : ℕ) : Vec F S1024x1024 .bf16 := matOf (pChunk m c) b
def hMat (c : Dev nD) (b : ℕ) : Vec F S1024x1024 .bf16 := matOf (hChunk m c) b

/-- Before point `n`: the scratch matrices agree with the current batch's on the columns already stored. -/
def filled (c : Dev nD) (n : ℕ) (s0 s1 : Vec F S1024x1024 .bf16) : Prop :=
  ∀ y : S1024x1024.Idx, (y 1).val < 128 * (n % 8) → s0 y = pMat m c (n / 8) y ∧ s1 y = hMat m c (n / 8) y

theorem filled_of_mod_zero (c : Dev nD) (n : ℕ) (hn : n % 8 = 0) (s0 s1 : Vec F S1024x1024 .bf16) : filled m c n s0 s1 :=
  fun y hy => absurd hy (by rw [hn]; omega)

/-- A point that is not a batch's last extends the agreement by one band. -/
theorem filled_step (c : Dev nD) (t : Fin cfg0.N) (h7 : ¬t.val % 8 = 7) (s0 s1 : Vec F S1024x1024 .bf16) (hf : filled m c t.val s0 s1) :
    filled m c (t.val + 1) (bandPut (k0_off1 (grid0.coords t)) s0 (k0_pay1 (iblk m c 0 t))) (bandPut (k0_off1 (grid0.coords t)) s1 (k0_pay2 (iblk m c 1 t))) := by
  intro y hy
  have e8 : (t.val + 1) / 8 = t.val / 8 := by omega
  have em : (t.val + 1) % 8 = t.val % 8 + 1 := by omega
  rw [e8]; rw [em] at hy
  exact ⟨bandPut_matOf (pChunk m c) t s0 (fun y h => (hf y h).1) y (by omega),
    bandPut_matOf (hChunk m c) t s1 (fun y h => (hf y h).2) y (by omega)⟩

/-- At a batch's last point the band store completes both matrices. -/
theorem filled_last (c : Dev nD) (t : Fin cfg0.N) (h7 : t.val % 8 = 7) (s0 s1 : Vec F S1024x1024 .bf16) (hf : filled m c t.val s0 s1) :
    bandPut (k0_off1 (grid0.coords t)) s0 (k0_pay1 (iblk m c 0 t)) = pMat m c (t.val / 8)
      ∧ bandPut (k0_off1 (grid0.coords t)) s1 (k0_pay2 (iblk m c 1 t)) = hMat m c (t.val / 8) :=
  ⟨funext fun y => bandPut_matOf (pChunk m c) t s0 (fun y h => (hf y h).1) y (by have := (y 1).isLt; have : (y 1).val < 1024 := this; omega),
    funext fun y => bandPut_matOf (hChunk m c) t s1 (fun y h => (hf y h).2) y (by have := (y 1).isLt; have : (y 1).val < 1024 := this; omega)⟩

/-- The region's invariant before point `n`: the scratch matrices at contents that agree with the current batch's on
    the stored columns, and the generator register at some state. -/
def PhiFill (c : Dev nD) (n : ℕ) : sProp 𝕄 :=
  iprop((∃ s0 s1, ⌜filled m c n s0 s1⌝ ∗ owns (c : Thread nD τ) scr0 fullShare s0 ∗ owns (c : Thread nD τ) scr1 fullShare s1) ∗ (∃ r, prngReg c r))

/-! ## The proof data -/

/-- On core `c`: the arrays as the region finds them; after the body each input's buffer at its block and each
    output's at the attention term of the point's batch (read only at a batch's last point, where the body stores it). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (pMat m c (t.val / 8)) (hMat m c (t.val / 8))
    | ⟨3, _⟩ => k0_pay5 (pMat m c (t.val / 8)) (hMat m c (t.val / 8))
  Φ t := PhiFill m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out2 (c : Dev nD) (t : Fin cfg0.N) : (dats m 0 c).after 2 t = k0_pay4 (pMat m c (t.val / 8)) (hMat m c (t.val / 8)) := by dsimp only [dats]
theorem after_out3 (c : Dev nD) (t : Fin cfg0.N) : (dats m 0 c).after 3 t = k0_pay5 (pMat m c (t.val / 8)) (hMat m c (t.val / 8)) := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

theorem Phi_start (c : Dev nD) (t : Fin cfg0.N) : (dats m 0 c).Φ t.castSucc = PhiFill m c t.val := by
  dsimp only [dats]; simp only [Fin.coe_castSucc]
theorem Phi_next (c : Dev nD) (t : Fin cfg0.N) : (dats m 0 c).Φ t.succ = PhiFill m c (t.val + 1) := by
  dsimp only [dats]; simp only [Fin.val_succ]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).owesAt () t.succ = (dats m 0 c).owesAt () t.castSucc from rfl]
  rw [Phi_start, Phi_next]
  rw [show (dats m 0 c).leavesExact 0 t = owns (c : Thread nD τ) (stg0 t) fullShare ((dats m 0 c).after 0 t) from by
    unfold Dat.leavesExact; rw [live_in0 t], after_in0]
  rw [show (dats m 0 c).leavesExact 1 t = owns (c : Thread nD τ) (stg1 t) fullShare ((dats m 0 c).after 1 t) from by
    unfold Dat.leavesExact; rw [live_in1 t], after_in1]
  unfold PhiFill
  by_cases h7 : t.val % 8 = 7
  · have hl : lastChunk (grid0.coords t) := (lastChunk_iff t).mpr h7
    rw [show (dats m 0 c).leavesExact 2 t = owns (c : Thread nD τ) (stg2 t) fullShare ((dats m 0 c).after 2 t) from by
      unfold Dat.leavesExact; rw [live_out2 t hl], after_out2]
    rw [show (dats m 0 c).leavesExact 3 t = owns (c : Thread nD τ) (stg3 t) fullShare ((dats m 0 c).after 3 t) from by
      unfold Dat.leavesExact; rw [live_out3 t hl], after_out3]
    iintro ⟨⟨⟨%s0, %s1, %hf, HS0, HS1⟩, Hg⟩, Ho, ⟨%d0, H0⟩, ⟨%d1, H1⟩, ⟨%d2, H2⟩, ⟨%d3, H3⟩⟩
    obtain ⟨e0, e1⟩ := filled_last m c t h7 s0 s1 hf
    rw [← e0, ← e1]
    iapply (body_last c (grid0.coords t) _ _ _ _ _ _ _ _ _ _ _ _ hl (iblk m c 0 t) (iblk m c 1 t) _ _ s0 s1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · iexists _, _; isplitr; swap
        · isplitl [HS0]; · iexact HS0
          iexact HS1
        ipureintro; exact filled_of_mod_zero m c (t.val + 1) (by omega) _ _
      iexact Hg
    isplitl [Ho]; · iexact Ho
    isplitl [H0]; · iexact H0
    isplitl [H1]; · iexact H1
    isplitl [H2]; · iexact H2
    iexact H3
  · have hl : ¬lastChunk (grid0.coords t) := fun h => h7 ((lastChunk_iff t).mp h)
    rw [Dat.leavesExact_idle (dats m 0 c) 2 t (idle_out2 t hl) (keep_out2 t hl)]
    rw [Dat.leavesExact_idle (dats m 0 c) 3 t (idle_out3 t hl) (keep_out3 t hl)]
    iintro ⟨⟨⟨%s0, %s1, %hf, HS0, HS1⟩, Hg⟩, Ho, ⟨%d0, H0⟩, ⟨%d1, H1⟩, ⟨%d2, H2⟩, ⟨%d3, H3⟩⟩
    iapply (body_fill c (grid0.coords t) _ _ _ _ _ _ _ _ _ _ _ _ hl (iblk m c 0 t) (iblk m c 1 t) _ _ s0 s1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · iexists _, _; isplitr; swap
        · isplitl [HS0]; · iexact HS0
          iexact HS1
        ipureintro; exact filled_step m c t h7 s0 s1 hf
      iexact Hg
    isplitl [Ho]; · iexact Ho
    isplitl [H0]; · iexact H0
    isplitl [H1]; · iexact H1
    isplitl [H2]; · iexists _; iexact H2
    iexists _; iexact H3

theorem body_obligation (c : Dev nD) : BodyObligation (dats (F := F) m 0 c) (defs₀ (F := F)) Variants.none () Set.univ := fun t => by
  rw [bigSep_W0, bigSep_W0]
  exact sound_body m c t

/-- Before the first point nothing is required of the scratch matrices. -/
theorem hin (c : Dev nD) : Pipeline.ΦA spec0 c ⊢ (dats m 0 c).Φ 0 := by
  rw [show (dats m 0 c).Φ 0 = PhiFill m c 0 from rfl, PhiA_scratch]
  unfold PhiFill
  iintro ⟨⟨⟨%s0, HS0⟩, ⟨%s1, HS1⟩⟩, Hg⟩
  isplitl [HS0 HS1]
  · iexists s0, s1; isplitr
    · ipureintro; exact filled_of_mod_zero m c 0 rfl s0 s1
    isplitl [HS0]; · iexact HS0
    iexact HS1
  iexact Hg

/-- After the last point what they hold is forgotten. -/
theorem hout (c : Dev nD) : (dats m 0 c).Φ (Fin.last cfg0.N) ⊢ Pipeline.ΦA spec0 c := by
  rw [show (dats m 0 c).Φ (Fin.last cfg0.N) = PhiFill m c (Fin.last cfg0.N).val from rfl, PhiA_scratch]
  unfold PhiFill
  iintro ⟨⟨%s0, %s1, %hf, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline ends at what the library computes
    from the proof data, and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.SlabFill

end
-- ==== Proof.IdealSlabFill.lean ====
/-
  One grid point of the attention kernel, read as a step on its two scratch matrices.

  The grid is `(b, d)` with 32 batches and 8 chunks of 128 feature columns. At every point the body narrows
  the point's `[1024, 128]` chunk of each input and stores it over columns `[128·d, 128·d + 128)` of that input's
  `[1024, 1024]` scratch matrix; only at `d = 7` does it go on to read both scratch matrices whole and store the two
  attention results into the output buffers. Stated for any float instance.
-/
import proofs.«179597_j89472758710963_2_alg».proof.Proof.Gen.KernelIdeal.Frame
import proofs.«179597_j89472758710963_2_alg».proof.Proof.Gen.KernelIdeal.Skeleton
import Idealize.ShloMosaic.Lib.WritesUnit
import Idealize.ShloMosaic.Lib.Pipeline.Value
import Idealize.ShloMosaic.Lib.ValueIdx

set_option maxRecDepth 16384

noncomputable section

namespace Cert.KernelIdeal.SlabFill

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Overwriting a band of columns

Each grid point `(b, d)` narrows its `[1024, 128]` chunk of the two inputs and stores it over columns
`[128·d, 128·d + 128)` of a `[1024, 1024]` scratch matrix, leaving the other columns as they were. -/

/-- `xs` with the `[1024, 128]` band at offsets `off` replaced by `w`: inside the band the entry of `w` at the
    index minus the offsets, outside it the old entry. -/
def bandPut (off : Fin 2 → ℕ) (xs : Vec F S1024x1024 .bf16) (w : Vec F S1024x128 .bf16) : Vec F S1024x1024 .bf16 :=
  fun y => if h : ∀ a, off a ≤ (y a).val ∧ (y a).val < off a + S1024x128.size a then
      w (Rect.unitLocal (s := S1024x1024) (off := off) (size := S1024x128.size) y h)
    else xs y

theorem zeros3 : (![0, 0, 0] : Fin 3 → ℕ) = fun _ => 0 := by
  funext a; match a with | ⟨0, _⟩ => rfl | ⟨1, _⟩ => rfl | ⟨2, _⟩ => rfl
theorem zeros2 : (![0, 0] : Fin 2 → ℕ) = fun _ => 0 := by
  funext a; match a with | ⟨0, _⟩ => rfl | ⟨1, _⟩ => rfl

/-- One store of a band over whole contents `xs` reads back as `bandPut`. -/
theorem read_band (v : Memref sig .tc .vmem S1024x1024 .bf16) (hv : v.IsWhole) (off : Fin 2 → ℕ)
    (inb : ∀ a, off a + S1024x128.size a ≤ S1024x1024.size a) (xs : Vec F S1024x1024 .bf16) (w : Vec F S1024x128 .bf16) :
    View.read (Elt F) v.view (v.view.writes (Elt F) (hv.unread xs) [(⟨Rect.unit off S1024x128.size inb, w⟩ : View.Piece (Elt F) S1024x1024 .bf16)])
      = bandPut off xs w := by
  funext y
  rw [View.read_writes_cons_unit v.view (hv.unread xs) inb w [] y rfl]
  unfold bandPut
  split
  · rfl
  · rw [View.writes_nil, hv.read_unread]

/-- A load of a whole `[1, 1024, 128]` buffer reads its contents. -/
theorem load_chunk (v : Memref sig .tc .vmem S1x1024x128 .f32) (hv : v.IsWhole) (x : Vec F S1x1024x128 .f32) :
    View.readAt (Elt F) v.view (Rect.unit (s := S1x1024x128) ![0, 0, 0] S1x1024x128.size inb_S1x1024x128_S1x1024x128_0_0_0).toLoadRect (hv.unread x) = x := by
  rw [View.readAt_eq_ld, hv.read_unread, View.ld_unit_zero zeros3]

/-- A load of a whole `[1024, 1024]` buffer reads what the buffer holds. -/
theorem load_mat (v : Memref sig .tc .vmem S1024x1024 .bf16) (g : v.view.ty.Contents (Elt F)) :
    View.readAt (Elt F) v.view (Rect.unit (s := S1024x1024) ![0, 0] S1024x1024.size inb_S1024x1024_S1024x1024_0_0).toLoadRect g = View.read (Elt F) v.view g := by
  rw [View.readAt_eq_ld, View.ld_unit_zero zeros2]

/-- One store through the whole `[1, 1024, 1024]` rectangle reads back as its payload, whatever was there. -/
theorem read_full (v : Memref sig .tc .vmem S1x1024x1024 .f32) (f : v.view.ty.Contents (Elt F)) (w : Vec F S1x1024x1024 .f32) :
    View.read (Elt F) v.view (v.view.writes (Elt F) f [(⟨Rect.unit (s := S1x1024x1024) ![0, 0, 0] S1x1024x1024.size inb_S1x1024x1024_S1x1024x1024_0_0_0, w⟩ : View.Piece (Elt F) S1x1024x1024 .f32)]) = w := by
  funext y
  exact View.read_writes_cons_unit_of_mem v.view f inb_S1x1024x1024_S1x1024x1024_0_0_0 w [] y y zeros3 (fun a => (Nat.zero_add _).symm)

/-! ## The body at one grid point -/

/-- The body's branch: taken at the last chunk of a batch. -/
abbrev lastChunk (i : grid0.Coords) : Prop := k0_cond1 i = 1#1

set_option maxHeartbeats 1000000 in
/-- Away from a batch's last chunk the body stores the two narrowed chunks over their bands of the two scratch
    matrices and touches nothing else: inputs and output buffers are handed back as found. -/
theorem body_fill (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1024x1024 .bf16) (harg6 : arg6.IsWhole) (arg7 : Memref sig .tc .vmem S1024x1024 .bf16) (harg7 : arg7.IsWhole) (hc0 : ¬lastChunk i)
    (x0 : Vec F S1x1024x128 .f32) (x1 : Vec F S1x1024x128 .f32) (xi2 xi3 : Vec F S1x1024x1024 .f32) (xs0 xs1 : Vec F S1024x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ owns (c : Thread nD τ) arg6 fullShare (bandPut (k0_off1 i) xs0 (k0_pay1 x0)) ∗ owns (c : Thread nD τ) arg7 fullShare (bandPut (k0_off1 i) xs1 (k0_pay2 x1))) -∗ K ⟨⟩))
          ⊢ wp frame (wpE (defs₀ (F := F)) Variants.none c none) E (cc0__attn_kernel i arg2 harg2 arg3 harg3 arg4 harg4 arg5 harg5 arg6 harg6 arg7 harg7) K := by
    intro E K
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; isplitr; swap; · iexact HS0
      ipureintro
      rw [load_chunk arg2 harg2 x0]
      exact read_band arg6 harg6 _ _ xs0 _
    iexists _; isplitr; swap; · iexact HS1
    ipureintro
    rw [load_chunk arg3 harg3 x1]
    exact read_band arg7 harg7 _ _ xs1 _

set_option maxHeartbeats 2000000 in
/-- At a batch's last chunk the body, after the same two band stores, reads both scratch matrices whole and stores
    the two attention results of those matrices over the whole of each output buffer. -/
theorem body_last (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1024x1024 .bf16) (harg6 : arg6.IsWhole) (arg7 : Memref sig .tc .vmem S1024x1024 .bf16) (harg7 : arg7.IsWhole) (hc0 : lastChunk i)
    (x0 : Vec F S1x1024x128 .f32) (x1 : Vec F S1x1024x128 .f32) (xi2 xi3 : Vec F S1x1024x1024 .f32) (xs0 xs1 : Vec F S1024x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare (k0_pay4 (bandPut (k0_off1 i) xs0 (k0_pay1 x0)) (bandPut (k0_off1 i) xs1 (k0_pay2 x1)))
                ∗ owns (c : Thread nD τ) arg5 fullShare (k0_pay5 (bandPut (k0_off1 i) xs0 (k0_pay1 x0)) (bandPut (k0_off1 i) xs1 (k0_pay2 x1)))
                ∗ owns (c : Thread nD τ) arg6 fullShare (bandPut (k0_off1 i) xs0 (k0_pay1 x0)) ∗ owns (c : Thread nD τ) arg7 fullShare (bandPut (k0_off1 i) xs1 (k0_pay2 x1))) -∗ K ⟨⟩))
          ⊢ wp frame (wpE (defs₀ (F := F)) Variants.none c none) E (cc0__attn_kernel i arg2 harg2 arg3 harg3 arg4 harg4 arg5 harg5 arg6 harg6 arg7 harg7) K := by
    intro E K
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0)
    sl_step
    have e0 : View.read (Elt F) arg6.view (arg6.view.writes (Elt F) (harg6.unread xs0) (body_last.sl.HS0_1 c i arg2 harg2 x0)) = bandPut (k0_off1 i) xs0 (k0_pay1 x0) := by
      sl_unfold_run_names
      rw [load_chunk arg2 harg2 x0]
      exact read_band arg6 harg6 _ _ xs0 _
    have e1 : View.read (Elt F) arg7.view (arg7.view.writes (Elt F) (harg7.unread xs1) (body_last.sl.HS1_1 c i arg3 harg3 x1)) = bandPut (k0_off1 i) xs1 (k0_pay2 x1) := by
      sl_unfold_run_names
      rw [load_chunk arg3 harg3 x1]
      exact read_band arg7 harg7 _ _ xs1 _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [read_full, load_mat, load_mat, e0, e1]
    isplitl [H3]
    · iexists _; isplitr; swap; · iexact H3
      ipureintro
      rw [read_full, load_mat, load_mat, e0, e1]
    isplitl [HS0]
    · iexists _; isplitr; swap; · iexact HS0
      ipureintro; exact e0
    iexists _; isplitr; swap; · iexact HS1
    ipureintro; exact e1

end Cert.KernelIdeal.SlabFill

end
-- ==== Proof.IdealFillRun.lean ====
/-
  The attention kernel's run over its grid, with the two scratch matrices carried from point to point.

  Points are numbered `t = 8·b + d`. Before point `t` the two scratch matrices agree with batch `b`'s two narrowed
  inputs on the columns below `128·d` (the chunks already stored for this batch) and hold anything elsewhere. A
  point's band store extends that agreement by 128 columns; at `d = 7` both matrices are complete, so the two results
  the body then stores are the attention terms of batch `b`'s whole matrices, and the next point starts a new batch
  with nothing required. Stated for any float instance.
-/
import proofs.«179597_j89472758710963_2_alg».proof.Proof.IdealSlabFill

set_option maxRecDepth 16384

noncomputable section

namespace Cert.KernelIdeal.SlabFill

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid, decided once -/

/-- The branch is taken exactly at the points `≡ 7 (mod 8)`: the last chunk of a batch. -/
theorem lastChunk_iff : ∀ t : Fin cfg0.N, lastChunk (grid0.coords t) ↔ t.val % 8 = 7 :=
  (by decide +kernel : ∀ t : Fin grid0.N, lastChunk (grid0.coords t) ↔ t.val % 8 = 7)
/-- The band starts at row 0 -/
theorem off_row : ∀ t : Fin cfg0.N, k0_off1 (grid0.coords t) (0 : Fin 2) = 0 :=
  (by decide +kernel : ∀ t : Fin grid0.N, k0_off1 (grid0.coords t) (0 : Fin 2) = 0)
/-- and at column `128·d`. -/
theorem off_col : ∀ t : Fin cfg0.N, k0_off1 (grid0.coords t) (1 : Fin 2) = 128 * (t.val % 8) :=
  (by decide +kernel : ∀ t : Fin grid0.N, k0_off1 (grid0.coords t) (1 : Fin 2) = 128 * (t.val % 8))
theorem live_in0 : ∀ t : Fin cfg0.N, cfg0.idle 0 (grid0.coords t) = false := by decide +kernel
theorem live_in1 : ∀ t : Fin cfg0.N, cfg0.idle 1 (grid0.coords t) = false := by decide +kernel
/-- Away from the last chunk the body stores nothing into the outputs, and they are not written back there. -/
theorem idle_out2 : ∀ t : Fin cfg0.N, ¬lastChunk (grid0.coords t) → cfg0.idle 2 (grid0.coords t) = true := by decide +kernel
theorem idle_out3 : ∀ t : Fin cfg0.N, ¬lastChunk (grid0.coords t) → cfg0.idle 3 (grid0.coords t) = true := by decide +kernel
theorem keep_out2 : ∀ t : Fin cfg0.N, ¬lastChunk (grid0.coords t) → (cfg0.win 2).flush t = false := by decide +kernel
theorem keep_out3 : ∀ t : Fin cfg0.N, ¬lastChunk (grid0.coords t) → (cfg0.win 3).flush t = false := by decide +kernel
/-- At the last chunk both outputs are stored. -/
theorem live_out2 : ∀ t : Fin cfg0.N, lastChunk (grid0.coords t) → cfg0.idle 2 (grid0.coords t) = false := by decide +kernel
theorem live_out3 : ∀ t : Fin cfg0.N, lastChunk (grid0.coords t) → cfg0.idle 3 (grid0.coords t) = false := by decide +kernel

/-! ## Buffers -/

abbrev stg0 (t : Fin cfg0.N) : Memref sig .tc .vmem S1x1024x128 .f32 := win0_0.stage (cfg0.slots t 0)
abbrev stg1 (t : Fin cfg0.N) : Memref sig .tc .vmem S1x1024x128 .f32 := win0_1.stage (cfg0.slots t 1)
abbrev stg2 (t : Fin cfg0.N) : Memref sig .tc .vmem S1x1024x1024 .f32 := win0_2.stage (cfg0.slots t 2)
abbrev stg3 (t : Fin cfg0.N) : Memref sig .tc .vmem S1x1024x1024 .f32 := win0_3.stage (cfg0.slots t 3)
/-- The two scratch matrices. -/
abbrev scr0 : Memref sig .tc .vmem S1024x1024 .bf16 := Memref.whole cc0_scratch0
abbrev scr1 : Memref sig .tc .vmem S1024x1024 .bf16 := Memref.whole cc0_scratch1

/-- What the region hands the body beside the windows: the two scratch matrices at some contents, and the
    generator register. -/
theorem PhiA_scratch (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## A batch's matrix, assembled from its eight chunks -/

theorem point_lt (k : ℕ) : k % 256 < cfg0.N := by
  show _ < grid0.N; rw [N_0]; exact Nat.mod_lt _ (by norm_num)

/-- The `[1024, 1024]` matrix whose columns `[128·d, 128·d + 128)` are the chunk of point `8·b + d`. -/
def matOf (chunk : Fin cfg0.N → Vec F S1024x128 .bf16) (b : ℕ) : Vec F S1024x1024 .bf16 :=
  fun y => chunk ⟨(8 * b + (y 1).val / 128) % 256, point_lt _⟩
    (ix2 (n0 := 1024) (n1 := 128) (y 0) ⟨(y 1).val % 128, Nat.mod_lt _ (by norm_num)⟩)

/-- A band store at point `t` over a matrix that agrees with the batch's on the columns below `128·d` agrees with it
    on the columns below `128·d + 128`. -/
theorem bandPut_matOf (chunk : Fin cfg0.N → Vec F S1024x128 .bf16) (t : Fin cfg0.N) (s : Vec F S1024x1024 .bf16)
    (hs : ∀ y : S1024x1024.Idx, (y 1).val < 128 * (t.val % 8) → s y = matOf chunk (t.val / 8) y)
    (y : S1024x1024.Idx) (hy : (y 1).val < 128 * (t.val % 8) + 128) :
    bandPut (k0_off1 (grid0.coords t)) s (chunk t) y = matOf chunk (t.val / 8) y := by
  have hN : t.val < 256 := lt_of_lt_of_eq t.isLt N_0
  have hy0 : (y 0).val < 1024 := (y 0).isLt
  have hy1 : (y 1).val < 1024 := (y 1).isLt
  unfold bandPut
  split
  · rename_i h
    have h1 : k0_off1 (grid0.coords t) (1 : Fin 2) ≤ (y 1).val ∧ (y 1).val < k0_off1 (grid0.coords t) (1 : Fin 2) + 128 := h 1
    rw [off_col t] at h1
    unfold matOf
    have ht : (⟨(8 * (t.val / 8) + (y 1).val / 128) % 256, point_lt _⟩ : Fin cfg0.N) = t :=
      Fin.ext (by show (8 * (t.val / 8) + (y 1).val / 128) % 256 = t.val; omega)
    rw [ht]
    refine congrArg (chunk t) (funext fun a => Fin.ext ?_)
    match a with
    | ⟨0, _⟩ =>
      show (y 0).val - k0_off1 (grid0.coords t) (0 : Fin 2) = (y 0).val
      rw [off_row t]; omega
    | ⟨1, _⟩ =>
      show (y 1).val - k0_off1 (grid0.coords t) (1 : Fin 2) = (y 1).val % 128
      rw [off_col t]; omega
  · rename_i h
    refine hs y ?_
    by_contra hc
    refine h fun a => ?_
    match a with
    | ⟨0, _⟩ =>
      show k0_off1 (grid0.coords t) (0 : Fin 2) ≤ (y 0).val ∧ (y 0).val < k0_off1 (grid0.coords t) (0 : Fin 2) + 1024
      rw [off_row t]; omega
    | ⟨1, _⟩ =>
      show k0_off1 (grid0.coords t) (1 : Fin 2) ≤ (y 1).val ∧ (y 1).val < k0_off1 (grid0.coords t) (1 : Fin 2) + 128
      rw [off_col t]; omega

variable (m : (ℓ : Loc nD τ sig) → Buf (Elt F) ℓ) (ρ : Dev nD → PrngReg)

/-- The narrowed chunk of each input that point `t` stores. -/
def pChunk (c : Dev nD) (t : Fin cfg0.N) : Vec F S1024x128 .bf16 := k0_pay1 (iblk m c 0 t)
def hChunk (c : Dev nD) (t : Fin cfg0.N) : Vec F S1024x128 .bf16 := k0_pay2 (iblk m c 1 t)

/-- Batch `b`'s two narrowed matrices. -/
def pMat (c : Dev nD) (b : ℕ) : Vec F S1024x1024 .bf16 := matOf (pChunk m c) b
def hMat (c : Dev nD) (b : ℕ) : Vec F S1024x1024 .bf16 := matOf (hChunk m c) b

/-- Before point `n`: the scratch matrices agree with the current batch's on the columns already stored. -/
def filled (c : Dev nD) (n : ℕ) (s0 s1 : Vec F S1024x1024 .bf16) : Prop :=
  ∀ y : S1024x1024.Idx, (y 1).val < 128 * (n % 8) → s0 y = pMat m c (n / 8) y ∧ s1 y = hMat m c (n / 8) y

theorem filled_of_mod_zero (c : Dev nD) (n : ℕ) (hn : n % 8 = 0) (s0 s1 : Vec F S1024x1024 .bf16) : filled m c n s0 s1 :=
  fun y hy => absurd hy (by rw [hn]; omega)

/-- A point that is not a batch's last extends the agreement by one band. -/
theorem filled_step (c : Dev nD) (t : Fin cfg0.N) (h7 : ¬t.val % 8 = 7) (s0 s1 : Vec F S1024x1024 .bf16) (hf : filled m c t.val s0 s1) :
    filled m c (t.val + 1) (bandPut (k0_off1 (grid0.coords t)) s0 (k0_pay1 (iblk m c 0 t))) (bandPut (k0_off1 (grid0.coords t)) s1 (k0_pay2 (iblk m c 1 t))) := by
  intro y hy
  have e8 : (t.val + 1) / 8 = t.val / 8 := by omega
  have em : (t.val + 1) % 8 = t.val % 8 + 1 := by omega
  rw [e8]; rw [em] at hy
  exact ⟨bandPut_matOf (pChunk m c) t s0 (fun y h => (hf y h).1) y (by omega),
    bandPut_matOf (hChunk m c) t s1 (fun y h => (hf y h).2) y (by omega)⟩

/-- At a batch's last point the band store completes both matrices. -/
theorem filled_last (c : Dev nD) (t : Fin cfg0.N) (h7 : t.val % 8 = 7) (s0 s1 : Vec F S1024x1024 .bf16) (hf : filled m c t.val s0 s1) :
    bandPut (k0_off1 (grid0.coords t)) s0 (k0_pay1 (iblk m c 0 t)) = pMat m c (t.val / 8)
      ∧ bandPut (k0_off1 (grid0.coords t)) s1 (k0_pay2 (iblk m c 1 t)) = hMat m c (t.val / 8) :=
  ⟨funext fun y => bandPut_matOf (pChunk m c) t s0 (fun y h => (hf y h).1) y (by have := (y 1).isLt; have : (y 1).val < 1024 := this; omega),
    funext fun y => bandPut_matOf (hChunk m c) t s1 (fun y h => (hf y h).2) y (by have := (y 1).isLt; have : (y 1).val < 1024 := this; omega)⟩

/-- The region's invariant before point `n`: the scratch matrices at contents that agree with the current batch's on
    the stored columns, and the generator register at some state. -/
def PhiFill (c : Dev nD) (n : ℕ) : sProp 𝕄 :=
  iprop((∃ s0 s1, ⌜filled m c n s0 s1⌝ ∗ owns (c : Thread nD τ) scr0 fullShare s0 ∗ owns (c : Thread nD τ) scr1 fullShare s1) ∗ (∃ r, prngReg c r))

/-! ## The proof data -/

/-- On core `c`: the arrays as the region finds them; after the body each input's buffer at its block and each
    output's at the attention term of the point's batch (read only at a batch's last point, where the body stores it). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (pMat m c (t.val / 8)) (hMat m c (t.val / 8))
    | ⟨3, _⟩ => k0_pay5 (pMat m c (t.val / 8)) (hMat m c (t.val / 8))
  Φ t := PhiFill m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out2 (c : Dev nD) (t : Fin cfg0.N) : (dats m 0 c).after 2 t = k0_pay4 (pMat m c (t.val / 8)) (hMat m c (t.val / 8)) := by dsimp only [dats]
theorem after_out3 (c : Dev nD) (t : Fin cfg0.N) : (dats m 0 c).after 3 t = k0_pay5 (pMat m c (t.val / 8)) (hMat m c (t.val / 8)) := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

theorem Phi_start (c : Dev nD) (t : Fin cfg0.N) : (dats m 0 c).Φ t.castSucc = PhiFill m c t.val := by
  dsimp only [dats]; simp only [Fin.coe_castSucc]
theorem Phi_next (c : Dev nD) (t : Fin cfg0.N) : (dats m 0 c).Φ t.succ = PhiFill m c (t.val + 1) := by
  dsimp only [dats]; simp only [Fin.val_succ]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).owesAt () t.succ = (dats m 0 c).owesAt () t.castSucc from rfl]
  rw [Phi_start, Phi_next]
  rw [show (dats m 0 c).leavesExact 0 t = owns (c : Thread nD τ) (stg0 t) fullShare ((dats m 0 c).after 0 t) from by
    unfold Dat.leavesExact; rw [live_in0 t], after_in0]
  rw [show (dats m 0 c).leavesExact 1 t = owns (c : Thread nD τ) (stg1 t) fullShare ((dats m 0 c).after 1 t) from by
    unfold Dat.leavesExact; rw [live_in1 t], after_in1]
  unfold PhiFill
  by_cases h7 : t.val % 8 = 7
  · have hl : lastChunk (grid0.coords t) := (lastChunk_iff t).mpr h7
    rw [show (dats m 0 c).leavesExact 2 t = owns (c : Thread nD τ) (stg2 t) fullShare ((dats m 0 c).after 2 t) from by
      unfold Dat.leavesExact; rw [live_out2 t hl], after_out2]
    rw [show (dats m 0 c).leavesExact 3 t = owns (c : Thread nD τ) (stg3 t) fullShare ((dats m 0 c).after 3 t) from by
      unfold Dat.leavesExact; rw [live_out3 t hl], after_out3]
    iintro ⟨⟨⟨%s0, %s1, %hf, HS0, HS1⟩, Hg⟩, Ho, ⟨%d0, H0⟩, ⟨%d1, H1⟩, ⟨%d2, H2⟩, ⟨%d3, H3⟩⟩
    obtain ⟨e0, e1⟩ := filled_last m c t h7 s0 s1 hf
    rw [← e0, ← e1]
    iapply (body_last c (grid0.coords t) _ _ _ _ _ _ _ _ _ _ _ _ hl (iblk m c 0 t) (iblk m c 1 t) _ _ s0 s1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · iexists _, _; isplitr; swap
        · isplitl [HS0]; · iexact HS0
          iexact HS1
        ipureintro; exact filled_of_mod_zero m c (t.val + 1) (by omega) _ _
      iexact Hg
    isplitl [Ho]; · iexact Ho
    isplitl [H0]; · iexact H0
    isplitl [H1]; · iexact H1
    isplitl [H2]; · iexact H2
    iexact H3
  · have hl : ¬lastChunk (grid0.coords t) := fun h => h7 ((lastChunk_iff t).mp h)
    rw [Dat.leavesExact_idle (dats m 0 c) 2 t (idle_out2 t hl) (keep_out2 t hl)]
    rw [Dat.leavesExact_idle (dats m 0 c) 3 t (idle_out3 t hl) (keep_out3 t hl)]
    iintro ⟨⟨⟨%s0, %s1, %hf, HS0, HS1⟩, Hg⟩, Ho, ⟨%d0, H0⟩, ⟨%d1, H1⟩, ⟨%d2, H2⟩, ⟨%d3, H3⟩⟩
    iapply (body_fill c (grid0.coords t) _ _ _ _ _ _ _ _ _ _ _ _ hl (iblk m c 0 t) (iblk m c 1 t) _ _ s0 s1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · iexists _, _; isplitr; swap
        · isplitl [HS0]; · iexact HS0
          iexact HS1
        ipureintro; exact filled_step m c t h7 s0 s1 hf
      iexact Hg
    isplitl [Ho]; · iexact Ho
    isplitl [H0]; · iexact H0
    isplitl [H1]; · iexact H1
    isplitl [H2]; · iexists _; iexact H2
    iexists _; iexact H3

theorem body_obligation (c : Dev nD) : BodyObligation (dats (F := F) m 0 c) (defs₀ (F := F)) Variants.none () Set.univ := fun t => by
  rw [bigSep_W0, bigSep_W0]
  exact sound_body m c t

/-- Before the first point nothing is required of the scratch matrices. -/
theorem hin (c : Dev nD) : Pipeline.ΦA spec0 c ⊢ (dats m 0 c).Φ 0 := by
  rw [show (dats m 0 c).Φ 0 = PhiFill m c 0 from rfl, PhiA_scratch]
  unfold PhiFill
  iintro ⟨⟨⟨%s0, HS0⟩, ⟨%s1, HS1⟩⟩, Hg⟩
  isplitl [HS0 HS1]
  · iexists s0, s1; isplitr
    · ipureintro; exact filled_of_mod_zero m c 0 rfl s0 s1
    isplitl [HS0]; · iexact HS0
    iexact HS1
  iexact Hg

/-- After the last point what they hold is forgotten. -/
theorem hout (c : Dev nD) : (dats m 0 c).Φ (Fin.last cfg0.N) ⊢ Pipeline.ΦA spec0 c := by
  rw [show (dats m 0 c).Φ (Fin.last cfg0.N) = PhiFill m c (Fin.last cfg0.N).val from rfl, PhiA_scratch]
  unfold PhiFill
  iintro ⟨⟨%s0, %s1, %hf, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline ends at what the library computes
    from the proof data, and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.SlabFill

end
-- ==== Proof.AttnBlock.lean ====
/-
  Dual softmax attention, one batch at a time, as array functions on the extended reals.

  For batch `b` write `p = A0[b]` and `h = A1[b]`, both `[1024, 1024]` matrices (rows are sequence positions,
  columns are features), and `e = p · hᵀ` the similarity matrix, `e[i, j] = Σ_k p[i, k] · h[j, k]`.
  `attnP` is the row softmax of `e` times `h`: `attnP[b, i, d] = Σ_j (exp (e[i, j] - max_j e[i, ·]) / Σ_j exp (…)) · h[j, d]`.
  `attnH` is the column softmax of `e`, transposed, times `p`:
  `attnH[b, j, d] = Σ_i (exp (e[i, j] - max_i e[·, j]) / Σ_i exp (…)) · p[i, d]`.
  Both are stated through the kernel body's own two output terms applied to the two whole matrices of a batch, so
  that what a block of the kernel's result holds is, by definition, a slice of these functions.
-/
import proofs.«179597_j89472758710963_2_alg».proof.Proof.Gen.KernelIdeal.Skeleton
import Idealize.ShloMosaic.PureOps.Ideal
import Idealize.ShloMosaic.Lib.ValueIdx

noncomputable section

namespace Cert.AttnBlock

open Idealize.ShloMosaic Idealize.ShloMosaic.ValueIdx Cert.KernelIdeal Cert.KernelIdeal.Gen

/-- Batch `b` of a `[32, 1024, 1024]` array, as a `[1024, 1024]` matrix. -/
def batch (A : Vec Ideal S32x1024x1024 .f32) (b : Fin 32) : Vec Ideal S1024x1024 .bf16 :=
  fun y => A (ix3 b (y 0) (y 1))

/-- Row-softmax attention: entry `(b, i, d)` is the body's first output term of batch `b`'s two matrices at `(0, i, d)`. -/
def attnP (A0 A1 : Vec Ideal S32x1024x1024 .f32) : Vec Ideal S32x1024x1024 .f32 :=
  fun idx => k0_pay4 (F := Ideal) (batch A0 (idx 0)) (batch A1 (idx 0)) (ix3 (0 : Fin 1) (idx 1) (idx 2))

/-- Column-softmax attention: entry `(b, j, d)` is the body's second output term of batch `b`'s two matrices at `(0, j, d)`. -/
def attnH (A0 A1 : Vec Ideal S32x1024x1024 .f32) : Vec Ideal S32x1024x1024 .f32 :=
  fun idx => k0_pay5 (F := Ideal) (batch A0 (idx 0)) (batch A1 (idx 0)) (ix3 (0 : Fin 1) (idx 1) (idx 2))

end Cert.AttnBlock

end
-- ==== Proof.IdealAttnArrays.lean ====
/-
  What the kernel's two result arrays hold after the run, on the extended reals.

  On the extended reals narrowing is the identity, so the chunk a point stores is its input block itself and the
  matrix assembled from a batch's eight chunks is that batch of the input array. A batch's last point writes
  back, into block `b` of each result array, the attention term of batch `b`'s two matrices; the 32 blocks tile the
  array, so each result array is the attention function of the two argument arrays.
-/
import proofs.«179597_j89472758710963_2_alg».proof.Proof.IdealFillRun
import proofs.«179597_j89472758710963_2_alg».proof.Proof.AttnBlock
import Idealize.ShloMosaic.Lib.ValueLayout

set_option maxRecDepth 16384

noncomputable section

namespace Cert.KernelIdeal.AttnArrays

open Cert.KernelIdeal Cert.KernelIdeal.Gen Cert.KernelIdeal.SlabFill Cert.AttnBlock
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The index maps, decided over the grid -/

/-- Point `8·b + d` reads block `(b, 0, d)` of each input -/
theorem idx_in0 : ∀ t : Fin cfg0.N, win0_0.index t (0 : Fin 3) = t.val / 8 ∧ win0_0.index t (1 : Fin 3) = 0 ∧ win0_0.index t (2 : Fin 3) = t.val % 8 :=
  (by decide +kernel : ∀ t : Fin grid0.N, win0_0.index t (0 : Fin 3) = t.val / 8 ∧ win0_0.index t (1 : Fin 3) = 0 ∧ win0_0.index t (2 : Fin 3) = t.val % 8)
theorem idx_in1 : ∀ t : Fin cfg0.N, win0_1.index t (0 : Fin 3) = t.val / 8 ∧ win0_1.index t (1 : Fin 3) = 0 ∧ win0_1.index t (2 : Fin 3) = t.val % 8 :=
  (by decide +kernel : ∀ t : Fin grid0.N, win0_1.index t (0 : Fin 3) = t.val / 8 ∧ win0_1.index t (1 : Fin 3) = 0 ∧ win0_1.index t (2 : Fin 3) = t.val % 8)
/-- and writes block `(b, 0, 0)` of each result. -/
theorem idx_out2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)
theorem idx_out3 : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-! ## A stored chunk is the input block -/

theorem pay1_apply (v : FVec Ideal S1x1024x128 .f32) (a : Fin 1024) (k : Fin 128) :
    k0_pay1 (F := Ideal) v (ix2 a k) = v (ix3 (0 : Fin 1) a k) := by
  show shapeCast S1024x128 (truncf (F := Ideal) .bf16 (shapeCast S1024x128 v shapeCasts_S1x1024x128_S1024x128) bitsLt_bf16_f32) shapeCasts_S1024x128_S1024x128 (ix2 a k) = _
  rw [shapeCast_self]
  exact shapeCast_1ab_ab_apply v _ a k

theorem pay2_apply (v : FVec Ideal S1x1024x128 .f32) (a : Fin 1024) (k : Fin 128) :
    k0_pay2 (F := Ideal) v (ix2 a k) = v (ix3 (0 : Fin 1) a k) := by
  show shapeCast S1024x128 (truncf (F := Ideal) .bf16 (shapeCast S1024x128 v shapeCasts_S1x1024x128_S1024x128) bitsLt_bf16_f32) shapeCasts_S1024x128_S1024x128 (ix2 a k) = _
  rw [shapeCast_self]
  exact shapeCast_1ab_ab_apply v _ a k

/-- Entry `(0, a, k)` of the first input's block at point `t = 8·b + d` is entry `(b, a, 128·d + k)` of the array. -/
theorem iblk0_apply (c : Dev nD) (t : Fin cfg0.N) (a : Fin 1024) (k : Fin 128) (i : S32x1024x1024.Idx)
    (h0 : (i 0).val = t.val / 8) (h1 : (i 1).val = a.val) (h2 : (i 2).val = 128 * (t.val % 8) + k.val) :
    iblk m c 0 t (ix3 (0 : Fin 1) a k) = V m c main_arg0 i := by
  show V m c main_arg0 (((cfg0.win 0).blk t).view.emb (ix3 (0 : Fin 1) a k)) = V m c main_arg0 i
  refine congrArg (V m c main_arg0) (funext fun ax => Fin.ext ?_)
  obtain ⟨e0, e1, e2⟩ := idx_in0 t
  match ax with
  | ⟨0, _⟩ => show win0_0.index t (0 : Fin 3) * 1 + 1 * (0 : ℕ) = (i 0).val; rw [e0, h0]; omega
  | ⟨1, _⟩ => show win0_0.index t (1 : Fin 3) * 1024 + 1 * a.val = (i 1).val; rw [e1, h1]; omega
  | ⟨2, _⟩ => show win0_0.index t (2 : Fin 3) * 128 + 1 * k.val = (i 2).val; rw [e2, h2]; omega

theorem iblk1_apply (c : Dev nD) (t : Fin cfg0.N) (a : Fin 1024) (k : Fin 128) (i : S32x1024x1024.Idx)
    (h0 : (i 0).val = t.val / 8) (h1 : (i 1).val = a.val) (h2 : (i 2).val = 128 * (t.val % 8) + k.val) :
    iblk m c 1 t (ix3 (0 : Fin 1) a k) = V m c main_arg1 i := by
  show V m c main_arg1 (((cfg0.win 1).blk t).view.emb (ix3 (0 : Fin 1) a k)) = V m c main_arg1 i
  refine congrArg (V m c main_arg1) (funext fun ax => Fin.ext ?_)
  obtain ⟨e0, e1, e2⟩ := idx_in1 t
  match ax with
  | ⟨0, _⟩ => show win0_1.index t (0 : Fin 3) * 1 + 1 * (0 : ℕ) = (i 0).val; rw [e0, h0]; omega
  | ⟨1, _⟩ => show win0_1.index t (1 : Fin 3) * 1024 + 1 * a.val = (i 1).val; rw [e1, h1]; omega
  | ⟨2, _⟩ => show win0_1.index t (2 : Fin 3) * 128 + 1 * k.val = (i 2).val; rw [e2, h2]; omega

/-- The matrix assembled from batch `b`'s chunks is batch `b` of the first argument, -/
theorem pMat_eq (c : Dev nD) (b : Fin 32) : pMat m c b.val = batch (V m c main_arg0) b := by
  funext y
  obtain ⟨a, k, rfl⟩ : ∃ (a : Fin 1024) (k : Fin 1024), y = ix2 a k := ⟨y 0, y 1, eq_ix2 y⟩
  have hb := b.isLt; have hk := k.isLt
  show k0_pay1 (F := Ideal) (iblk m c 0 ⟨(8 * b.val + k.val / 128) % 256, point_lt _⟩) (ix2 (n0 := 1024) (n1 := 128) a ⟨k.val % 128, Nat.mod_lt _ (by norm_num)⟩)
    = V m c main_arg0 (ix3 b a k)
  rw [pay1_apply]
  exact iblk0_apply m c _ a _ (ix3 b a k) (by show b.val = (8 * b.val + k.val / 128) % 256 / 8; omega) rfl
    (by show k.val = 128 * ((8 * b.val + k.val / 128) % 256 % 8) + k.val % 128; omega)

/-- and likewise for the second. -/
theorem hMat_eq (c : Dev nD) (b : Fin 32) : hMat m c b.val = batch (V m c main_arg1) b := by
  funext y
  obtain ⟨a, k, rfl⟩ : ∃ (a : Fin 1024) (k : Fin 1024), y = ix2 a k := ⟨y 0, y 1, eq_ix2 y⟩
  have hb := b.isLt; have hk := k.isLt
  show k0_pay2 (F := Ideal) (iblk m c 1 ⟨(8 * b.val + k.val / 128) % 256, point_lt _⟩) (ix2 (n0 := 1024) (n1 := 128) a ⟨k.val % 128, Nat.mod_lt _ (by norm_num)⟩)
    = V m c main_arg1 (ix3 b a k)
  rw [pay2_apply]
  exact iblk1_apply m c _ a _ (ix3 b a k) (by show b.val = (8 * b.val + k.val / 128) % 256 / 8; omega) rfl
    (by show k.val = 128 * ((8 * b.val + k.val / 128) % 256 % 8) + k.val % 128; omega)

/-! ## Block `b` of the attention arrays -/

/-- An entry of `attnP` whose batch coordinate is `b` is the first output term of batch `b` at the other two coordinates. -/
theorem attnP_at (A0 A1 : Vec Ideal S32x1024x1024 .f32) (i : S32x1024x1024.Idx) (b : Fin 32) (j : S1x1024x1024.Idx)
    (hb : i 0 = b) (h1 : (i 1).val = (j 1).val) (h2 : (i 2).val = (j 2).val) :
    attnP A0 A1 i = k0_pay4 (F := Ideal) (batch A0 b) (batch A1 b) j := by
  unfold attnP
  rw [hb]
  refine congrArg (k0_pay4 (F := Ideal) (batch A0 b) (batch A1 b)) (funext fun ax => Fin.ext ?_)
  match ax with
  | ⟨0, _⟩ => show (0 : ℕ) = (j 0).val; have : (j 0).val < 1 := (j 0).isLt; omega
  | ⟨1, _⟩ => exact h1
  | ⟨2, _⟩ => exact h2

theorem attnH_at (A0 A1 : Vec Ideal S32x1024x1024 .f32) (i : S32x1024x1024.Idx) (b : Fin 32) (j : S1x1024x1024.Idx)
    (hb : i 0 = b) (h1 : (i 1).val = (j 1).val) (h2 : (i 2).val = (j 2).val) :
    attnH A0 A1 i = k0_pay5 (F := Ideal) (batch A0 b) (batch A1 b) j := by
  unfold attnH
  rw [hb]
  refine congrArg (k0_pay5 (F := Ideal) (batch A0 b) (batch A1 b)) (funext fun ax => Fin.ext ?_)
  match ax with
  | ⟨0, _⟩ => show (0 : ℕ) = (j 0).val; have : (j 0).val < 1 := (j 0).isLt; omega
  | ⟨1, _⟩ => exact h1
  | ⟨2, _⟩ => exact h2

/-! ## What a point writes back, and the whole arrays -/

/-- What point `t` writes back to the first result is block `t` of `attnP` of the argument arrays. -/
theorem flushed_p (c : Dev nD) (t : Fin cfg0.N) :
    (dats m 0 c).flushed 2 t = ((cfg0.win 2).blk t).view.read (Elt Ideal) (attnP (V m c main_arg0) (V m c main_arg1)) := by
  show (cfg0.win 2).cut (grid0.coords t) ((dats m 0 c).after 2 t) = _
  rw [after_out2]
  have hN : t.val < 256 := lt_of_lt_of_eq t.isLt N_0
  have hb : t.val / 8 < 32 := by omega
  have ep := pMat_eq m c ⟨t.val / 8, hb⟩
  have eh := hMat_eq m c ⟨t.val / 8, hb⟩
  rw [show ((⟨t.val / 8, hb⟩ : Fin 32).val) = t.val / 8 from rfl] at ep eh
  rw [ep, eh]
  obtain ⟨e0, e1, e2⟩ := idx_out2 t
  funext j
  show k0_pay4 (F := Ideal) (batch (V m c main_arg0) ⟨t.val / 8, hb⟩) (batch (V m c main_arg1) ⟨t.val / 8, hb⟩) j
    = attnP (V m c main_arg0) (V m c main_arg1) (((cfg0.win 2).blk t).view.emb j)
  refine (attnP_at _ _ _ ⟨t.val / 8, hb⟩ j (Fin.ext ?_) ?_ ?_).symm
  · show win0_2.index t (0 : Fin 3) * 1 + 1 * (j 0).val = t.val / 8
    have : (j 0).val < 1 := (j 0).isLt
    rw [e0]; omega
  · show win0_2.index t (1 : Fin 3) * 1024 + 1 * (j 1).val = (j 1).val
    rw [e1]; omega
  · show win0_2.index t (2 : Fin 3) * 1024 + 1 * (j 2).val = (j 2).val
    rw [e2]; omega

theorem flushed_h (c : Dev nD) (t : Fin cfg0.N) :
    (dats m 0 c).flushed 3 t = ((cfg0.win 3).blk t).view.read (Elt Ideal) (attnH (V m c main_arg0) (V m c main_arg1)) := by
  show (cfg0.win 3).cut (grid0.coords t) ((dats m 0 c).after 3 t) = _
  rw [after_out3]
  have hN : t.val < 256 := lt_of_lt_of_eq t.isLt N_0
  have hb : t.val / 8 < 32 := by omega
  have ep := pMat_eq m c ⟨t.val / 8, hb⟩
  have eh := hMat_eq m c ⟨t.val / 8, hb⟩
  rw [show ((⟨t.val / 8, hb⟩ : Fin 32).val) = t.val / 8 from rfl] at ep eh
  rw [ep, eh]
  obtain ⟨e0, e1, e2⟩ := idx_out3 t
  funext j
  show k0_pay5 (F := Ideal) (batch (V m c main_arg0) ⟨t.val / 8, hb⟩) (batch (V m c main_arg1) ⟨t.val / 8, hb⟩) j
    = attnH (V m c main_arg0) (V m c main_arg1) (((cfg0.win 3).blk t).view.emb j)
  refine (attnH_at _ _ _ ⟨t.val / 8, hb⟩ j (Fin.ext ?_) ?_ ?_).symm
  · show win0_3.index t (0 : Fin 3) * 1 + 1 * (j 0).val = t.val / 8
    have : (j 0).val < 1 := (j 0).isLt
    rw [e0]; omega
  · show win0_3.index t (1 : Fin 3) * 1024 + 1 * (j 1).val = (j 1).val
    rw [e1]; omega
  · show win0_3.index t (2 : Fin 3) * 1024 + 1 * (j 2).val = (j 2).val
    rw [e2]; omega

/-- An index of the first result array lies in point `t`'s block iff each coordinate is in the block's range. -/
theorem mem_blk_p (t : Fin cfg0.N) (i : S32x1024x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v0_0).slice (win0_2.rect t)).set ↔ _
  rw [View.set_slice_whole, Rect.mem_set_unit]
  exact Iff.rfl

theorem mem_blk_h (t : Fin cfg0.N) (i : S32x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v0_1).slice (win0_3.rect t)).set ↔ _
  rw [View.set_slice_whole, Rect.mem_set_unit]
  exact Iff.rfl

/-- Every index `(b, ·, ·)` lies in the block written back at batch `b`'s last point. -/
theorem cover_p (i : S32x1024x1024.Idx) : ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 1024 := (i 2).isLt
  have hlt : 8 * (i 0).val + 7 < cfg0.N := by show _ < grid0.N; rw [N_0]; omega
  refine ⟨⟨8 * (i 0).val + 7, hlt⟩, (flush0_2 _).mpr (by show (8 * (i 0).val + 7) % 8 = 7; omega), ?_⟩
  rw [mem_blk_p]
  obtain ⟨e0, e1, e2⟩ := idx_out2 ⟨8 * (i 0).val + 7, hlt⟩
  have e0' : win0_2.index ⟨8 * (i 0).val + 7, hlt⟩ (0 : Fin 3) = (8 * (i 0).val + 7) / 8 := e0
  intro a
  match a with
  | ⟨0, _⟩ =>
    show win0_2.index ⟨8 * (i 0).val + 7, hlt⟩ (0 : Fin 3) * 1 ≤ (i 0).val ∧ (i 0).val < win0_2.index ⟨8 * (i 0).val + 7, hlt⟩ (0 : Fin 3) * 1 + 1
    rw [e0']; omega
  | ⟨1, _⟩ =>
    show win0_2.index ⟨8 * (i 0).val + 7, hlt⟩ (1 : Fin 3) * 1024 ≤ (i 1).val ∧ (i 1).val < win0_2.index ⟨8 * (i 0).val + 7, hlt⟩ (1 : Fin 3) * 1024 + 1024
    rw [e1]; omega
  | ⟨2, _⟩ =>
    show win0_2.index ⟨8 * (i 0).val + 7, hlt⟩ (2 : Fin 3) * 1024 ≤ (i 2).val ∧ (i 2).val < win0_2.index ⟨8 * (i 0).val + 7, hlt⟩ (2 : Fin 3) * 1024 + 1024
    rw [e2]; omega

theorem cover_h (i : S32x1024x1024.Idx) : ∃ t : Fin cfg0.N, (cfg0.win 3).flush t = true ∧ i ∈ ((cfg0.win 3).blk t).view.set := by
  have hi0 : (i 0).val < 32 := (i 0).isLt
  have hi1 : (i 1).val < 1024 := (i 1).isLt
  have hi2 : (i 2).val < 1024 := (i 2).isLt
  have hlt : 8 * (i 0).val + 7 < cfg0.N := by show _ < grid0.N; rw [N_0]; omega
  refine ⟨⟨8 * (i 0).val + 7, hlt⟩, (flush0_3 _).mpr (by show (8 * (i 0).val + 7) % 8 = 7; omega), ?_⟩
  rw [mem_blk_h]
  obtain ⟨e0, e1, e2⟩ := idx_out3 ⟨8 * (i 0).val + 7, hlt⟩
  have e0' : win0_3.index ⟨8 * (i 0).val + 7, hlt⟩ (0 : Fin 3) = (8 * (i 0).val + 7) / 8 := e0
  intro a
  match a with
  | ⟨0, _⟩ =>
    show win0_3.index ⟨8 * (i 0).val + 7, hlt⟩ (0 : Fin 3) * 1 ≤ (i 0).val ∧ (i 0).val < win0_3.index ⟨8 * (i 0).val + 7, hlt⟩ (0 : Fin 3) * 1 + 1
    rw [e0']; omega
  | ⟨1, _⟩ =>
    show win0_3.index ⟨8 * (i 0).val + 7, hlt⟩ (1 : Fin 3) * 1024 ≤ (i 1).val ∧ (i 1).val < win0_3.index ⟨8 * (i 0).val + 7, hlt⟩ (1 : Fin 3) * 1024 + 1024
    rw [e1]; omega
  | ⟨2, _⟩ =>
    show win0_3.index ⟨8 * (i 0).val + 7, hlt⟩ (2 : Fin 3) * 1024 ≤ (i 2).val ∧ (i 2).val < win0_3.index ⟨8 * (i 0).val + 7, hlt⟩ (2 : Fin 3) * 1024 + 1024
    rw [e2]; omega

/-- The first result array after the run. -/
theorem final_p (c : Dev nD) : (dats m 0 c).arrAt 2 cfg0.N = attnP (V m c main_arg0) (V m c main_arg1) :=
  (dats m 0 c).arrAt_eq_of_cover 2 _ (fun t _ => flushed_p m c t) cover_p

/-- The second result array after the run. -/
theorem final_h (c : Dev nD) : (dats m 0 c).arrAt 3 cfg0.N = attnH (V m c main_arg0) (V m c main_arg1) :=
  (dats m 0 c).arrAt_eq_of_cover 3 _ (fun t _ => flushed_h m c t) cover_h

/-- The run on the extended reals: both results at the attention functions of the arguments, the arguments unchanged. -/
theorem run_attn : θ_run defs (onTc (τ := τ) (main (F := Ideal))) ⟨m, fun _ => 0, ρ⟩ fun r => ∀ c : Dev nD,
      r.2.mem ((c.tc : Thread nD τ).loc main_v0_0) = attnP (m ((c.tc : Thread nD τ).loc main_arg0)) (m ((c.tc : Thread nD τ).loc main_arg1))
      ∧ r.2.mem ((c.tc : Thread nD τ).loc main_v0_1) = attnH (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final_p m c), ((h c).1 3).trans (final_h m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.AttnArrays

end
-- ==== Proof.RowSmSim.lean ====
/-
  The similarity matrix of one batch. For two `[1024, 1024]` matrices `P` and `H` the body's first matrix product,
  into a zero accumulator and contracting the second axis of both, is at `(i, j)` the plain sum
  `Σ_k P[i, k] · H[j, k]`; the reference's batched product of the two `[32, 1024, 1024]` arrays is at `(b, i, j)`
  the same sum over batch `b`'s two matrices.
-/
import proofs.«179597_j89472758710963_2_alg».proof.Proof.AttnBlock
import proofs.«179597_j89472758710963_2_alg».proof.Proof.Gen.ReferenceIdeal.Read
import Idealize.ShloMosaic.PureOps.Ideal.Laws
import Idealize.ShloMosaic.Lib.ValueIdx

noncomputable section

open scoped BigOperators

namespace Cert.RowSm

open Idealize.ShloMosaic Idealize.ShloMosaic.ValueIdx

/-- A `[1024, 1024]` matrix of extended reals, in the format the body holds a batch's matrices in (at the ideal
    values every format is the extended reals). -/
abbrev Mat : Type := FVec Ideal ⟨2, ![1024, 1024]⟩ .bf16

/-- A `[32, 1024, 1024]` array of extended reals. -/
abbrev Arr3 : Type := FVec Ideal ⟨3, ![32, 1024, 1024]⟩ .f32

/-- The similarity of row `i` of `P` and row `j` of `H`. -/
def sim (P H : Mat) (i j : Fin 1024) : EReal := ∑ k : Fin 1024, P (ix2 i k) * H (ix2 j k)

/-- The dimension numbers of the body's first product: both operands contract their second axis. -/
abbrev dotSim : DotDims Cert.KernelIdeal.S1024x1024 Cert.KernelIdeal.S1024x1024 Cert.KernelIdeal.S1024x1024 :=
  Cert.KernelIdeal.dot_S1024x1024_S1024x1024_S1024x1024_1_1_0_0_n_n

theorem dotSim_lhs_0 (y : Cert.KernelIdeal.S1024x1024.Idx) (q : dotSim.contr.Idx) : (dotSim.lhsIdx y q 0).val = (y 0).val := by
  unfold DotDims.lhsIdx
  rw [dif_neg (show ¬(0 : Fin Cert.KernelIdeal.S1024x1024.rank) ∈ dotSim.lhsBatch by decide),
    dif_pos (show (0 : Fin Cert.KernelIdeal.S1024x1024.rank) ∈ dotSim.lhsNonContracting by decide)]
  rfl
theorem dotSim_lhs_1 (y : Cert.KernelIdeal.S1024x1024.Idx) (q : dotSim.contr.Idx) :
    (dotSim.lhsIdx y q 1).val = (q ⟨0, by decide⟩).val :=
  dotSim.lhsIdx_val_of_single rfl y q
theorem dotSim_rhs_0 (y : Cert.KernelIdeal.S1024x1024.Idx) (q : dotSim.contr.Idx) : (dotSim.rhsIdx y q 0).val = (y 1).val := by
  unfold DotDims.rhsIdx
  rw [dif_neg (show ¬(0 : Fin Cert.KernelIdeal.S1024x1024.rank) ∈ dotSim.rhsBatch by decide),
    dif_pos (show (0 : Fin Cert.KernelIdeal.S1024x1024.rank) ∈ dotSim.rhsNonContracting by decide)]
  rfl
theorem dotSim_rhs_1 (y : Cert.KernelIdeal.S1024x1024.Idx) (q : dotSim.contr.Idx) :
    (dotSim.rhsIdx y q 1).val = (q ⟨0, by decide⟩).val :=
  dotSim.rhsIdx_val_of_single rfl y q

/-- The body's first matrix product at `(i, j)` is the similarity of row `i` of `P` and row `j` of `H`. -/
theorem pay3_apply (P H : Mat) (i j : Fin 1024) :
    Cert.KernelIdeal.Gen.k0_pay3 (F := Ideal) P H (ix2 i j) = sim P H i j := by
  unfold Cert.KernelIdeal.Gen.k0_pay3 sim
  refine (Ideal.matmul_constant_zero_apply (φ₁ := .bf16) (φ₂ := .bf16) dotSim none P H (ix2 i j)).trans ?_
  rw [← Equiv.sum_comp (contrEquiv1 dotSim 1024 rfl rfl).symm]
  refine Finset.sum_congr rfl fun k _ => ?_
  have hk := contrEquiv1_symm_val dotSim 1024 rfl rfl k
  have el : dotSim.lhsIdx (ix2 i j) ((contrEquiv1 dotSim 1024 rfl rfl).symm k) = ix2 i k :=
    funext fun a => Fin.ext (by
      match a with
      | ⟨0, _⟩ => exact dotSim_lhs_0 _ _
      | ⟨1, _⟩ => exact (dotSim_lhs_1 _ _).trans hk)
  have er : dotSim.rhsIdx (ix2 i j) ((contrEquiv1 dotSim 1024 rfl rfl).symm k) = ix2 j k :=
    funext fun a => Fin.ext (by
      match a with
      | ⟨0, _⟩ => exact dotSim_rhs_0 _ _
      | ⟨1, _⟩ => exact (dotSim_rhs_1 _ _).trans hk)
  rw [el, er]

/-- Batch `b` of a `[32, 1024, 1024]` array at `(i, k)` is the array at `(b, i, k)`. -/
theorem batch_apply (A : Arr3) (b : Fin 32) (i k : Fin 1024) : Cert.AttnBlock.batch A b (ix2 i k) = A (ix3 b i k) := rfl

/-- The reference's batched product at `(b, i, j)` is the similarity of rows `i` and `j` of batch `b`'s two matrices. -/
theorem ref_sim_apply (x0 x1 : Arr3) (b : Fin 32) (i j : Fin 1024) :
    Cert.ReferenceIdeal.Read.val_main_v0 (F := Ideal) x0 x1 (ix3 b i j)
      = sim (Cert.AttnBlock.batch x0 b) (Cert.AttnBlock.batch x1 b) i j := by
  rw [Cert.ReferenceIdeal.Read.val_main_v0_apply]
  unfold sim
  refine Finset.sum_congr rfl fun k _ => ?_
  rw [batch_apply, batch_apply]
  have el : Cert.ReferenceIdeal.Read.lidx_main_v0 (ix3 b i j) k = ix3 b i k :=
    funext fun a => Fin.ext (by match a with | ⟨0, _⟩ => rfl | ⟨1, _⟩ => rfl | ⟨2, _⟩ => rfl)
  have er : Cert.ReferenceIdeal.Read.ridx_main_v0 (ix3 b i j) k = ix3 b j k :=
    funext fun a => Fin.ext (by match a with | ⟨0, _⟩ => rfl | ⟨1, _⟩ => rfl | ⟨2, _⟩ => rfl)
  rw [el, er]

end Cert.RowSm

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibRowMax.lean ====
/-
  A row maximum on the extended reals, read at an index: the lane maximum over the second axis of a matrix, and the
  host's maximum-reduction over the last axis of a rank-3 array, are both the fold of `max` from the initial value over
  that row's entries; and the initial value `-∞` is the bottom element, which `max` absorbs. General lemmas over any
  extents. Also the two kept-axis forms a softmax over rows uses: a row's maximum, and a row's sum, cast to a column and
  broadcast back over the row, read at an index.
-/
import proofs.«179597_j89472758710963_2_alg».proof.Proof.LibKeepdims
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of `-∞` is the bottom of the extended reals. -/
theorem ofBits_neg_inf_f32 : Ideal.ofBits .f32 0xFF800000#32 = ⊥ := by simp [Ideal.ofBits, Ideal.ieee]

/-- The maximum with `-∞` on the left is the other operand. -/
theorem max_neg_inf_left (x : EReal) : max (Ideal.ofBits .f32 0xFF800000#32) x = x := by
  rw [ofBits_neg_inf_f32]; exact max_bot_left x

/-- On the extended reals a lane maximum over the second axis of an `[a, b]` matrix is, at row `r`, the fold of `max`
    from the accumulator's value over that row's entries. -/
theorem multiReduction_max_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.maximumf.neutral .f32 hφ)
    (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by `max` over the last axis of an `[n, a, b]` array is, at `(m, r)`, the
    fold of `max` from the initial value over the entries `(m, r, ·)`. -/
theorem hostReduce_max_last {n a b : ℕ} {u : Shape} (x : (⟨3, ![n, a, b]⟩ : Shape).Idx → EReal) (init : u.Idx → EReal)
    (h' : (⟨3, ![n, a, b]⟩ : Shape).ReducesTo [2] ⟨2, ![n, a]⟩) (h : (⟨3, ![n, a, b]⟩ : Shape).Reduces [2] ⟨2, ![n, a]⟩)
    (hu : 0 < u.numel) (m : Fin n) (r : Fin a) :
    Host.reduce (max : EReal → EReal → EReal) x init h' hu (ix2 m r)
      = (Finset.univ : Finset (Fin b)).fold max (init (Shape.Idx.first hu)) (fun d => x (ix3 m r d)) := by
  refine (Host.reduce_eq_fold_single (max : EReal → EReal → EReal) x init h' h hu (ix2 m r)).trans ?_
  refine congrArg (fun f => (Finset.univ : Finset (Fin b)).fold max (init (Shape.Idx.first hu)) f) (funext fun d => ?_)
  refine congrArg x (funext fun ax => Fin.ext ?_)
  match ax with
  | ⟨0, _⟩ => rfl
  | ⟨1, _⟩ => rfl
  | ⟨2, _⟩ => rfl

/-- A row maximum with the reduced axis kept, broadcast back over the matrix: at `(r, c)` it is the fold of `max` from the
    accumulator's value over row `r`, whatever `c`. -/
theorem rowMax_keepdims_apply {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.maximumf.neutral .f32 hφ)
    (hsc : (⟨1, ![a]⟩ : Shape).ShapeCasts ⟨2, ![a, 1]⟩) (hbc : (⟨2, ![a, 1]⟩ : Shape).Broadcasts ⟨2, ![a, b]⟩)
    (r : Fin a) (c : Fin b) :
    broadcastTo ⟨2, ![a, b]⟩ (shapeCast ⟨2, ![a, 1]⟩ (multiReduction .maximumf [1] ⟨1, ![a]⟩ src acc h hφ hacc) hsc) hbc (ix2 r c)
      = (Finset.univ : Finset (Fin b)).fold max (Ideal.ofBits .f32 acc) (fun d => src (ix2 r d)) :=
  (Cert.LibKeepdims.broadcastTo_a1_ab_apply _ hbc r c).trans
    ((Cert.LibKeepdims.shapeCast_a_a1_apply _ hsc r (0 : Fin 1)).trans (multiReduction_max_rows src acc h hφ hacc r))

/-- A row sum with the reduced axis kept, broadcast back over the matrix: at `(r, c)` it is the sum of row `r`,
    whatever `c`. -/
theorem rowSum_keepdims_apply {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (hsc : (⟨1, ![a]⟩ : Shape).ShapeCasts ⟨2, ![a, 1]⟩) (hbc : (⟨2, ![a, 1]⟩ : Shape).Broadcasts ⟨2, ![a, b]⟩)
    (r : Fin a) (c : Fin b) :
    broadcastTo ⟨2, ![a, b]⟩ (shapeCast ⟨2, ![a, 1]⟩ (multiReduction .add [1] ⟨1, ![a]⟩ src acc h hφ hacc) hsc) hbc (ix2 r c)
      = ∑ d : Fin b, src (ix2 r d) :=
  (Cert.LibKeepdims.broadcastTo_a1_ab_apply _ hbc r c).trans
    ((Cert.LibKeepdims.shapeCast_a_a1_apply _ hsc r (0 : Fin 1)).trans (Cert.LibKeepdims.multiReduction_add_rows src acc h hφ hacc r))

end Cert.LibRowMax

end
-- ==== Proof.RowSmSoft.lean ====
/-
  The row softmax of a score matrix, and the two programs' ways of computing it.

  For scores `e[i, j]` write `m[i] = max_j e[i, j]` (a fold of `max` from `-∞`), `x[i, j] = exp (e[i, j] - m[i])`,
  `s[i] = Σ_j x[i, j]` and `w[i, j] = x[i, j] / s[i]`. The body computes `m` and `s` by lane reductions whose results
  are cast to a column and broadcast back over the rows; the reference reduces the last axis of the batched scores,
  takes one more maximum with a broadcast `-∞` (the identity), and broadcasts back in two steps. Read at an index both
  are `w`, with the same `exp` and the same quotient of extended reals; a change of float format is the identity.
-/
import proofs.«179597_j89472758710963_2_alg».proof.Proof.RowSmSim
import proofs.«179597_j89472758710963_2_alg».proof.Proof.LibRowMax

noncomputable section

open scoped BigOperators

namespace Cert.RowSm

open Idealize.ShloMosaic Idealize.ShloMosaic.ValueIdx

/-- A `1024 × 1024` score matrix by coordinates. -/
abbrev Scores : Type := Fin 1024 → Fin 1024 → EReal

/-- The maximum of row `i`: the fold of `max` from `-∞` over the row. -/
def rowMax (e : Scores) (i : Fin 1024) : EReal :=
  (Finset.univ : Finset (Fin 1024)).fold max (Ideal.ofBits .f32 0xFF800000#32) (fun j => e i j)

/-- The exponential of an entry less its row's maximum. -/
def rowExp (e : Scores) (i j : Fin 1024) : EReal := Ideal.exp (e i j - rowMax e i)

/-- The sum of a row's shifted exponentials. -/
def rowSum (e : Scores) (i : Fin 1024) : EReal := ∑ j : Fin 1024, rowExp e i j

/-- The row softmax: an entry's shifted exponential over its row's sum. -/
def rowSoftmax (e : Scores) (i j : Fin 1024) : EReal := Ideal.div (rowExp e i j) (rowSum e i)

/-! ## The body's chain over a score matrix -/

/-- The body's shifted exponentials of a score matrix `E`: the lane maximum over the second axis, cast to a column,
    broadcast back, subtracted, exponentiated. -/
abbrev kerExp (E : FVec Ideal Cert.KernelIdeal.S1024x1024 .f32) (hr : Cert.KernelIdeal.S1024x1024.Reduces [1] Cert.KernelIdeal.S1024) (hφ : FKind.Formats .f32)
    (hm : (0xFF800000#32 : BitVec (FTy.bits .f32)) = FKind.maximumf.neutral .f32 hφ)
    (hsc : Cert.KernelIdeal.S1024.ShapeCasts Cert.KernelIdeal.S1024x1) (hbc : Cert.KernelIdeal.S1024x1.Broadcasts Cert.KernelIdeal.S1024x1024) :
    FVec Ideal Cert.KernelIdeal.S1024x1024 .f32 :=
  Idealize.ShloMosaic.exp (subf E (broadcastTo Cert.KernelIdeal.S1024x1024
    (shapeCast Cert.KernelIdeal.S1024x1 (multiReduction (F := Ideal) .maximumf [1] Cert.KernelIdeal.S1024 E 0xFF800000#32 hr hφ hm) hsc) hbc))

/-- At `(i, j)` they are the shifted exponential of `E`'s entries. -/
theorem kerExp_apply (E : FVec Ideal Cert.KernelIdeal.S1024x1024 .f32) (hr : Cert.KernelIdeal.S1024x1024.Reduces [1] Cert.KernelIdeal.S1024) (hφ : FKind.Formats .f32)
    (hm : (0xFF800000#32 : BitVec (FTy.bits .f32)) = FKind.maximumf.neutral .f32 hφ)
    (hsc : Cert.KernelIdeal.S1024.ShapeCasts Cert.KernelIdeal.S1024x1) (hbc : Cert.KernelIdeal.S1024x1.Broadcasts Cert.KernelIdeal.S1024x1024) (i j : Fin 1024) :
    kerExp E hr hφ hm hsc hbc (ix2 i j) = rowExp (fun a c => E (ix2 a c)) i j := by
  unfold rowExp rowMax
  exact congrArg (fun m => Ideal.exp (E (ix2 i j) - m))
    (Cert.LibRowMax.rowMax_keepdims_apply E 0xFF800000#32 hr hφ hm hsc hbc i j)

/-- The body's quotient — the shifted exponentials over their lane sum, cast to a column and broadcast back, then
    narrowed to the matrix unit's operand format — is at `(i, j)` the row softmax of `E`'s entries. -/
theorem ker_softmax (E : FVec Ideal Cert.KernelIdeal.S1024x1024 .f32) (hr : Cert.KernelIdeal.S1024x1024.Reduces [1] Cert.KernelIdeal.S1024) (hφ : FKind.Formats .f32)
    (hm : (0xFF800000#32 : BitVec (FTy.bits .f32)) = FKind.maximumf.neutral .f32 hφ)
    (ha : (0x00000000#32 : BitVec (FTy.bits .f32)) = FKind.add.neutral .f32 hφ)
    (hsc : Cert.KernelIdeal.S1024.ShapeCasts Cert.KernelIdeal.S1024x1) (hbc : Cert.KernelIdeal.S1024x1.Broadcasts Cert.KernelIdeal.S1024x1024)
    (hb : FTy.bits .bf16 < FTy.bits .f32) (i j : Fin 1024) :
    truncf (F := Ideal) .bf16
        (divf (kerExp E hr hφ hm hsc hbc)
          (broadcastTo Cert.KernelIdeal.S1024x1024
            (shapeCast Cert.KernelIdeal.S1024x1
              (multiReduction (F := Ideal) .add [1] Cert.KernelIdeal.S1024 (kerExp E hr hφ hm hsc hbc) 0x00000000#32 hr hφ ha) hsc) hbc))
        hb (ix2 i j)
      = rowSoftmax (fun a c => E (ix2 a c)) i j := by
  unfold rowSoftmax rowSum
  show Ideal.div (kerExp E hr hφ hm hsc hbc (ix2 i j)) _ = _
  refine congrArg₂ Ideal.div (kerExp_apply E hr hφ hm hsc hbc i j) ?_
  refine (Cert.LibRowMax.rowSum_keepdims_apply (kerExp E hr hφ hm hsc hbc) 0x00000000#32 hr hφ ha hsc hbc i j).trans ?_
  exact Finset.sum_congr rfl fun k _ => kerExp_apply E hr hφ hm hsc hbc i k

/-! ## The reference's chain over the batched scores -/

/-- Batch `b`'s scores as the reference holds them: the batched product read at `(b, ·, ·)`. -/
abbrev refScores (x0 x1 : Arr3) (b : Fin 32) : Scores := fun a c => Cert.ReferenceIdeal.Read.val_main_v0 (F := Ideal) x0 x1 (ix3 b a c)

/-- They are the similarities of batch `b`'s two matrices. -/
theorem refScores_eq (x0 x1 : Arr3) (b : Fin 32) :
    refScores x0 x1 b = sim (Cert.AttnBlock.batch x0 b) (Cert.AttnBlock.batch x1 b) :=
  funext fun a => funext fun c => ref_sim_apply x0 x1 b a c

/-- The reference's row maximum — the reduction over the last axis, then one more maximum with `-∞` — at `(b, i)`. -/
theorem ref_rowMax (x0 x1 : Arr3) (b : Fin 32) (i : Fin 1024) :
    Cert.ReferenceIdeal.Read.val_main_v3 (F := Ideal) x0 x1 (ix2 b i) = rowMax (refScores x0 x1 b) i := by
  rw [Cert.ReferenceIdeal.Read.val_main_v3_apply, Cert.ReferenceIdeal.Read.val_main_v2_apply, Cert.ReferenceIdeal.Read.val_main_cst_0_apply]
  show max (Ideal.ofBits .f32 0xFF800000#32) (Cert.ReferenceIdeal.Read.val_main_v1 (F := Ideal) x0 x1 (ix2 b i)) = _
  refine (Cert.LibRowMax.max_neg_inf_left _).trans ?_
  unfold Cert.ReferenceIdeal.Read.val_main_v1 rowMax
  exact Cert.LibRowMax.hostReduce_max_last (Cert.ReferenceIdeal.Read.val_main_v0 (F := Ideal) x0 x1) (Cert.ReferenceIdeal.Read.val_main_cst (F := Ideal))
    Cert.ReferenceIdeal.Gen.reducesTo_S32x1024x1024_S32x1024_d2 (by decide) Cert.ReferenceIdeal.Gen.h_S_ b i

/-- The reference's shifted exponentials at `(b, i, j)`. -/
theorem ref_rowExp (x0 x1 : Arr3) (b : Fin 32) (i j : Fin 1024) :
    Cert.ReferenceIdeal.Read.val_main_v7 (F := Ideal) x0 x1 (ix3 b i j) = rowExp (refScores x0 x1 b) i j := by
  have e : Cert.ReferenceIdeal.Read.idx_main_v4 (Cert.ReferenceIdeal.Read.idx_main_v5 (ix3 b i j)) = ix2 b i :=
    funext fun a => Fin.ext (by match a with | ⟨0, _⟩ => rfl | ⟨1, _⟩ => rfl)
  rw [Cert.ReferenceIdeal.Read.val_main_v7_apply, Cert.ReferenceIdeal.Read.val_main_v6_apply, Cert.ReferenceIdeal.Read.val_main_v5_apply, Cert.ReferenceIdeal.Read.val_main_v4_apply, e, ref_rowMax]
  rfl

/-- The reference's row sums at `(b, i)`: the initial value is zero. -/
theorem ref_rowSum (x0 x1 : Arr3) (b : Fin 32) (i : Fin 1024) :
    Cert.ReferenceIdeal.Read.val_main_v8 (F := Ideal) x0 x1 (ix2 b i) = rowSum (refScores x0 x1 b) i := by
  rw [Cert.ReferenceIdeal.Read.val_main_v8_apply, Cert.ReferenceIdeal.Read.val_main_cst_1_apply]
  show Ideal.ofBits .f32 0x00000000#32 + _ = _
  rw [Ideal.ofBits_zero_f32, zero_add]
  unfold rowSum
  refine Finset.sum_congr rfl fun k _ => ?_
  have e : Cert.ReferenceIdeal.Read.idx_main_v8 (ix2 b i) k = ix3 b i k :=
    funext fun a => Fin.ext (by match a with | ⟨0, _⟩ => rfl | ⟨1, _⟩ => rfl | ⟨2, _⟩ => rfl)
  rw [e, ref_rowExp]

/-- The reference's quotient at `(b, i, j)` is the row softmax of batch `b`'s scores. -/
theorem ref_softmax (x0 x1 : Arr3) (b : Fin 32) (i j : Fin 1024) :
    Cert.ReferenceIdeal.Read.val_main_v11 (F := Ideal) x0 x1 (ix3 b i j) = rowSoftmax (refScores x0 x1 b) i j := by
  have e : Cert.ReferenceIdeal.Read.idx_main_v9 (Cert.ReferenceIdeal.Read.idx_main_v10 (ix3 b i j)) = ix2 b i :=
    funext fun a => Fin.ext (by match a with | ⟨0, _⟩ => rfl | ⟨1, _⟩ => rfl)
  rw [Cert.ReferenceIdeal.Read.val_main_v11_apply, Cert.ReferenceIdeal.Read.val_main_v10_apply, Cert.ReferenceIdeal.Read.val_main_v9_apply, e, ref_rowSum, ref_rowExp]
  rfl

end Cert.RowSm

end
-- ==== Proof.RowSmOut.lean ====
/-
  Row-softmax attention: the two programs' results are the same function.

  The body's second matrix product contracts the softmax weights' second axis with the first axis of `H`, into a zero
  accumulator: entry `(i, d)` is `Σ_j w[i, j] · H[j, d]`, and a leading unit axis is added by a cast. The reference's
  last batched product is at `(b, i, d)` the same sum over batch `b`'s weights and matrix. With the similarity, the row
  maximum, the exponentials, the row sums and the quotient identified on both sides, the reference's result is the
  body's first output term applied batch by batch.
-/
import proofs.«179597_j89472758710963_2_alg».proof.Proof.RowSmSoft
import Idealize.ShloMosaic.Lib.ValueLayout

noncomputable section

open scoped BigOperators

namespace Cert.RowSm

open Idealize.ShloMosaic Idealize.ShloMosaic.ValueIdx

/-- Row-softmax attention of two matrices at `(i, d)`: the softmax weights of row `i` of the similarity matrix against
    column `d` of `H`. -/
def rowAttn (P H : Mat) (i d : Fin 1024) : EReal := ∑ j : Fin 1024, rowSoftmax (sim P H) i j * H (ix2 j d)

/-- The dimension numbers of the body's second product: the left operand contracts its second axis, the right its
    first. -/
abbrev dotOut : DotDims Cert.KernelIdeal.S1024x1024 Cert.KernelIdeal.S1024x1024 Cert.KernelIdeal.S1024x1024 :=
  Cert.KernelIdeal.dot_S1024x1024_S1024x1024_S1024x1024_1_0_0_1_n_n

theorem dotOut_lhs_0 (y : Cert.KernelIdeal.S1024x1024.Idx) (q : dotOut.contr.Idx) : (dotOut.lhsIdx y q 0).val = (y 0).val := by
  unfold DotDims.lhsIdx
  rw [dif_neg (show ¬(0 : Fin Cert.KernelIdeal.S1024x1024.rank) ∈ dotOut.lhsBatch by decide),
    dif_pos (show (0 : Fin Cert.KernelIdeal.S1024x1024.rank) ∈ dotOut.lhsNonContracting by decide)]
  rfl
theorem dotOut_lhs_1 (y : Cert.KernelIdeal.S1024x1024.Idx) (q : dotOut.contr.Idx) :
    (dotOut.lhsIdx y q 1).val = (q ⟨0, by decide⟩).val :=
  dotOut.lhsIdx_val_of_single rfl y q
theorem dotOut_rhs_0 (y : Cert.KernelIdeal.S1024x1024.Idx) (q : dotOut.contr.Idx) :
    (dotOut.rhsIdx y q 0).val = (q ⟨0, by decide⟩).val :=
  dotOut.rhsIdx_val_of_single rfl y q
theorem dotOut_rhs_1 (y : Cert.KernelIdeal.S1024x1024.Idx) (q : dotOut.contr.Idx) : (dotOut.rhsIdx y q 1).val = (y 1).val := by
  unfold DotDims.rhsIdx
  rw [dif_neg (show ¬(1 : Fin Cert.KernelIdeal.S1024x1024.rank) ∈ dotOut.rhsBatch by decide),
    dif_pos (show (1 : Fin Cert.KernelIdeal.S1024x1024.rank) ∈ dotOut.rhsNonContracting by decide)]
  rfl

/-- The body's second product of a weight matrix `W` and `H`, into a zero accumulator, at `(i, d)`. -/
theorem dotOut_apply (W H : Mat) (i d : Fin 1024) :
    matmul (F := Ideal) dotOut none W H (constant Cert.KernelIdeal.S1024x1024 .f32 0x00000000#32) (ix2 i d)
      = ∑ j : Fin 1024, W (ix2 i j) * H (ix2 j d) := by
  refine (Ideal.matmul_constant_zero_apply (φ₁ := .bf16) (φ₂ := .bf16) dotOut none W H (ix2 i d)).trans ?_
  rw [← Equiv.sum_comp (contrEquiv1 dotOut 1024 rfl rfl).symm]
  refine Finset.sum_congr rfl fun k _ => ?_
  have hk := contrEquiv1_symm_val dotOut 1024 rfl rfl k
  have el : dotOut.lhsIdx (ix2 i d) ((contrEquiv1 dotOut 1024 rfl rfl).symm k) = ix2 i k :=
    funext fun a => Fin.ext (by
      match a with
      | ⟨0, _⟩ => exact dotOut_lhs_0 _ _
      | ⟨1, _⟩ => exact (dotOut_lhs_1 _ _).trans hk)
  have er : dotOut.rhsIdx (ix2 i d) ((contrEquiv1 dotOut 1024 rfl rfl).symm k) = ix2 k d :=
    funext fun a => Fin.ext (by
      match a with
      | ⟨0, _⟩ => exact (dotOut_rhs_0 _ _).trans hk
      | ⟨1, _⟩ => exact dotOut_rhs_1 _ _)
  rw [el, er]

/-- The body's first output term at `(0, i, d)` is row-softmax attention of its two matrices. -/
theorem pay4_apply (P H : Mat) (i d : Fin 1024) :
    Cert.KernelIdeal.Gen.k0_pay4 (F := Ideal) P H (ix3 (0 : Fin 1) i d) = rowAttn P H i d := by
  unfold Cert.KernelIdeal.Gen.k0_pay4 rowAttn
  refine (shapeCast_ab_1ab_apply _ _ (0 : Fin 1) i d).trans ?_
  refine (dotOut_apply _ H i d).trans ?_
  refine Finset.sum_congr rfl fun j _ => congrArg (· * H (ix2 j d)) ?_
  refine (ker_softmax (Cert.KernelIdeal.Gen.k0_pay3 (F := Ideal) P H) _ _ _ _ _ _ _ i j).trans ?_
  exact congrArg (fun e => rowSoftmax e i j) (funext fun a => funext fun c => pay3_apply P H a c)

/-- The reference's last batched product at `(b, i, d)` is row-softmax attention of batch `b`'s two matrices. -/
theorem ref_out_apply (x0 x1 : Arr3) (b : Fin 32) (i d : Fin 1024) :
    Cert.ReferenceIdeal.Read.val_main_v12 (F := Ideal) x0 x1 (ix3 b i d)
      = rowAttn (Cert.AttnBlock.batch x0 b) (Cert.AttnBlock.batch x1 b) i d := by
  rw [Cert.ReferenceIdeal.Read.val_main_v12_apply]
  unfold rowAttn
  refine Finset.sum_congr rfl fun j _ => ?_
  have el : Cert.ReferenceIdeal.Read.lidx_main_v12 (ix3 b i d) j = ix3 b i j :=
    funext fun a => Fin.ext (by match a with | ⟨0, _⟩ => rfl | ⟨1, _⟩ => rfl | ⟨2, _⟩ => rfl)
  have er : Cert.ReferenceIdeal.Read.ridx_main_v12 (ix3 b i d) j = ix3 b j d :=
    funext fun a => Fin.ext (by match a with | ⟨0, _⟩ => rfl | ⟨1, _⟩ => rfl | ⟨2, _⟩ => rfl)
  rw [el, er, ref_softmax, refScores_eq, batch_apply]

/-- The reference's row-softmax result is, as a whole array, the body's first output term applied batch by batch. -/
theorem ref_p_eq (x0 x1 : (⟨Cert.ReferenceIdeal.S32x1024x1024, .f32⟩ : BufTy).Contents (Elt Ideal)) :
    Cert.ReferenceIdeal.Read.val_main_v12 (F := Ideal) x0 x1 = Cert.AttnBlock.attnP x0 x1 := by
  funext idx
  obtain ⟨b, i, d, rfl⟩ : ∃ (b : Fin 32) (i d : Fin 1024), idx = ix3 b i d := ⟨idx 0, idx 1, idx 2, eq_ix3 idx⟩
  refine (ref_out_apply x0 x1 b i d).trans ?_
  exact (pay4_apply (Cert.AttnBlock.batch x0 b) (Cert.AttnBlock.batch x1 b) i d).symm

end Cert.RowSm

end
-- ==== Proof.ColSmSpec.lean ====
/-
  The column softmax of a matrix and the attention output built from it, as functions on the extended reals.

  For a matrix `e` (rows `i`, columns `j`): `cmax e j` is the maximum of column `j` (taken from `-∞`),
  `cexp e i j = exp (e i j - cmax e j)`, `csum e j = Σ_i cexp e i j` and `csoft e i j = cexp e i j / csum e j`:
  the softmax taken down each column. For two `[1024, 1024]` matrices `P` and `H`, `sim P H i j = Σ_k P[i, k] · H[j, k]`
  is their similarity matrix and `outH P H j d = Σ_i csoft (sim P H) i j · P[i, d]` the column-softmax attention.
-/
import Idealize.ShloMosaic.PureOps.Ideal
import Idealize.ShloMosaic.Lib.ValueIdx

noncomputable section

open scoped BigOperators

namespace Cert.ColSm

open Idealize.ShloMosaic Idealize.ShloMosaic.ValueIdx

/-- The maximum of column `j`, taken from `-∞`. -/
def cmax {a b : ℕ} (e : Fin a → Fin b → EReal) (j : Fin b) : EReal :=
  (Finset.univ : Finset (Fin a)).fold max (Ideal.ofBits .f32 0xFF800000#32) (fun i => e i j)

/-- The exponential of an entry less its column's maximum. -/
def cexp {a b : ℕ} (e : Fin a → Fin b → EReal) (i : Fin a) (j : Fin b) : EReal :=
  Ideal.exp (e i j - cmax e j)

/-- The sum of those exponentials down column `j`. -/
def csum {a b : ℕ} (e : Fin a → Fin b → EReal) (j : Fin b) : EReal :=
  ∑ i : Fin a, cexp e i j

/-- The softmax down column `j`, at row `i`. -/
def csoft {a b : ℕ} (e : Fin a → Fin b → EReal) (i : Fin a) (j : Fin b) : EReal :=
  Ideal.div (cexp e i j) (csum e j)

/-- The similarity matrix of two `[1024, 1024]` matrices: `Σ_k P[i, k] · H[j, k]`. -/
def sim (P H : (⟨2, ![1024, 1024]⟩ : Shape).Idx → EReal) (i j : Fin 1024) : EReal :=
  ∑ k : Fin 1024, P (ix2 i k) * H (ix2 j k)

/-- Column-softmax attention: `Σ_i csoft (sim P H) i j · P[i, d]`. -/
def outH (P H : (⟨2, ![1024, 1024]⟩ : Shape).Idx → EReal) (j d : Fin 1024) : EReal :=
  ∑ i : Fin 1024, csoft (sim P H) i j * P (ix2 i d)

end Cert.ColSm

end
-- ==== Proof.ColSmSim.lean ====
/-
  The similarity matrix on both sides. The kernel's first product, a matrix product into a zero accumulator that
  contracts the second axis of both operands, is at `(i, j)` the sum `Σ_k P[i, k] · H[j, k]`; the reference's
  batched product of the two whole arrays, contracting their last axes, is at `(b, i, j)` the same sum for batch
  `b`'s two matrices.
-/
import proofs.«179597_j89472758710963_2_alg».proof.Proof.Gen.KernelIdeal.Skeleton
import proofs.«179597_j89472758710963_2_alg».proof.Proof.Gen.ReferenceIdeal.Read
import proofs.«179597_j89472758710963_2_alg».proof.Proof.AttnBlock
import proofs.«179597_j89472758710963_2_alg».proof.Proof.ColSmSpec
import Idealize.ShloMosaic.PureOps.Ideal.Laws
import Idealize.ShloMosaic.Lib.ValueIdx

noncomputable section

open scoped BigOperators

namespace Cert.ColSm

open Idealize.ShloMosaic Idealize.ShloMosaic.ValueIdx

/-- The first product's dimension numbers: contract axis 1 of both operands. -/
abbrev dotSim := Cert.KernelIdeal.dot_S1024x1024_S1024x1024_S1024x1024_1_1_0_0_n_n

theorem dotSim_lhs0 (y : Cert.KernelIdeal.S1024x1024.Idx) (q : dotSim.contr.Idx) : (dotSim.lhsIdx y q 0).val = (y 0).val := by
  unfold DotDims.lhsIdx
  rw [dif_neg (show ¬(0 : Fin Cert.KernelIdeal.S1024x1024.rank) ∈ dotSim.lhsBatch by decide),
    dif_pos (show (0 : Fin Cert.KernelIdeal.S1024x1024.rank) ∈ dotSim.lhsNonContracting by decide)]
  rfl

theorem dotSim_rhs0 (y : Cert.KernelIdeal.S1024x1024.Idx) (q : dotSim.contr.Idx) : (dotSim.rhsIdx y q 0).val = (y 1).val := by
  unfold DotDims.rhsIdx
  rw [dif_neg (show ¬(0 : Fin Cert.KernelIdeal.S1024x1024.rank) ∈ dotSim.rhsBatch by decide),
    dif_pos (show (0 : Fin Cert.KernelIdeal.S1024x1024.rank) ∈ dotSim.rhsNonContracting by decide)]
  rfl

/-- The kernel's first product at `(i, j)` is `Σ_k P[i, k] · H[j, k]`. -/
theorem pay3_apply (P H : FVec Ideal Cert.KernelIdeal.S1024x1024 .bf16) (i j : Fin 1024) :
    Cert.KernelIdeal.Gen.k0_pay3 (F := Ideal) P H (ix2 i j) = sim P H i j := by
  unfold Cert.KernelIdeal.Gen.k0_pay3 sim
  refine (Ideal.matmul_constant_zero_apply dotSim none P H (ix2 i j)).trans ?_
  rw [← Equiv.sum_comp (contrEquiv1 dotSim 1024 rfl rfl).symm]
  refine Finset.sum_congr rfl fun k _ => ?_
  have hk := contrEquiv1_symm_val dotSim 1024 rfl rfl k
  have el : dotSim.lhsIdx (ix2 i j) ((contrEquiv1 dotSim 1024 rfl rfl).symm k) = ix2 i k := funext fun a => Fin.ext (by
    match a with
    | ⟨0, _⟩ => exact dotSim_lhs0 _ _
    | ⟨1, _⟩ => exact (dotSim.lhsIdx_val_of_single rfl _ _).trans hk)
  have er : dotSim.rhsIdx (ix2 i j) ((contrEquiv1 dotSim 1024 rfl rfl).symm k) = ix2 j k := funext fun a => Fin.ext (by
    match a with
    | ⟨0, _⟩ => exact dotSim_rhs0 _ _
    | ⟨1, _⟩ => exact (dotSim.rhsIdx_val_of_single rfl _ _).trans hk)
  rw [el, er]

/-- The reference's batched product at `(b, i, j)` is the same sum for batch `b`'s two matrices. -/
theorem ref_sim_apply (x0 x1 : (⟨Cert.ReferenceIdeal.S32x1024x1024, .f32⟩ : BufTy).Contents (Elt Ideal)) (b : Fin 32)
    (i j : Fin 1024) :
    Cert.ReferenceIdeal.Read.val_main_v0 (F := Ideal) x0 x1 (ix3 b i j)
      = sim (Cert.AttnBlock.batch x0 b) (Cert.AttnBlock.batch x1 b) i j := by
  rw [Cert.ReferenceIdeal.Read.val_main_v0_apply]
  unfold sim
  refine Finset.sum_congr rfl fun k _ => ?_
  have el : Cert.ReferenceIdeal.Read.lidx_main_v0 (ix3 b i j) k = ix3 b i k := funext fun a => Fin.ext (by
    match a with
    | ⟨0, _⟩ => rfl
    | ⟨1, _⟩ => rfl
    | ⟨2, _⟩ => rfl)
  have er : Cert.ReferenceIdeal.Read.ridx_main_v0 (ix3 b i j) k = ix3 b j k := funext fun a => Fin.ext (by
    match a with
    | ⟨0, _⟩ => rfl
    | ⟨1, _⟩ => rfl
    | ⟨2, _⟩ => rfl)
  rw [el, er]
  rfl

/-- So the reference's product, batch `b`, is the similarity matrix as a function of `(i, j)`. -/
theorem ref_sim_fun (x0 x1 : (⟨Cert.ReferenceIdeal.S32x1024x1024, .f32⟩ : BufTy).Contents (Elt Ideal)) (b : Fin 32) :
    (fun i j : Fin 1024 => Cert.ReferenceIdeal.Read.val_main_v0 (F := Ideal) x0 x1 (ix3 b i j))
      = sim (Cert.AttnBlock.batch x0 b) (Cert.AttnBlock.batch x1 b) :=
  funext fun i => funext fun j => ref_sim_apply x0 x1 b i j

/-- And the kernel's first product is the similarity matrix as a function of `(i, j)`. -/
theorem pay3_fun (P H : FVec Ideal Cert.KernelIdeal.S1024x1024 .bf16) :
    (fun i j : Fin 1024 => Cert.KernelIdeal.Gen.k0_pay3 (F := Ideal) P H (ix2 i j)) = sim P H :=
  funext fun i => funext fun j => pay3_apply P H i j

end Cert.ColSm

end
-- ==== Proof.LibKeepdimsCols.lean ====
/-
  Column forms of a reduction with a kept axis. A reduction over the FIRST axis of a matrix read as the sum, or the
  maximum, over that column's entries; the host's reduction over the MIDDLE axis of a rank-3 array read the same way;
  and a vector laid as one row and repeated down the rows read at an index. General lemmas over any extents.
  (The cast of an `[a]` vector to the row `[1, a]` and the repetition of one row down `[b, a]` are the library's
  `shapeCast_a_1a_apply` and `broadcastTo_1b_ab_apply`; their composition is stated here.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdimsCols

open Idealize.ShloMosaic Idealize.ShloMosaic.ValueIdx

variable {α : Type}

/-- A `[b]` vector laid as the one row `[1, b]` and repeated down `[a, b]` reads, at `(p, c)`, the vector at `c`. -/
theorem broadcastTo_shapeCast_row_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- On the extended reals a lane sum over the first axis of an `[a, b]` matrix is, at column `c`, the sum of that
    column's entries. -/
theorem multiReduction_add_cols {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  match ax with
  | ⟨0, _⟩ => rfl
  | ⟨1, _⟩ => rfl

/-- On the extended reals a lane maximum over the first axis of an `[a, b]` matrix is, at column `c`, the maximum of
    the accumulator's value and that column's entries. -/
theorem multiReduction_maximumf_cols {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun r => src (ix2 r c)) := by
  refine (Ideal.multiReduction_maximumf_single src acc h hφ hacc (ix1 c)).trans ?_
  refine congrArg (fun f => Finset.fold max (Ideal.ofBits .f32 acc) f (Finset.univ : Finset (Fin a))) ?_
  exact funext fun r => congrArg src (funext fun ax => Fin.ext (by
    match ax with
    | ⟨0, _⟩ => rfl
    | ⟨1, _⟩ => rfl))

/-- On the extended reals the host's reduction with a maximum body over the middle axis of an `[m, a, b]` array is, at
    `(k, c)`, the maximum of the initial value and the entries `(k, ·, c)`. -/
theorem hostReduce_maximumf_mid {m a b : ℕ} {u : Shape} (x : FVec Ideal ⟨3, ![m, a, b]⟩ .f32) (init : u.Idx → Ideal .f32)
    (h' : (⟨3, ![m, a, b]⟩ : Shape).ReducesTo [1] ⟨2, ![m, b]⟩) (h : (⟨3, ![m, a, b]⟩ : Shape).Reduces [1] ⟨2, ![m, b]⟩)
    (hu : 0 < u.numel) (k : Fin m) (c : Fin b) :
    Host.reduce FloatOps.maximumf x init h' hu (ix2 k c)
      = (Finset.univ : Finset (Fin a)).fold max (init (Shape.Idx.first hu)) (fun r => x (ix3 k r c)) := by
  refine (Host.reduce_eq_fold_single FloatOps.maximumf x init h' h hu (ix2 k c)).trans ?_
  refine congrArg (fun f => Finset.fold max (init (Shape.Idx.first hu)) f (Finset.univ : Finset (Fin a))) ?_
  exact funext fun r => congrArg x (funext fun ax => Fin.ext (by
    match ax with
    | ⟨0, _⟩ => rfl
    | ⟨1, _⟩ => rfl
    | ⟨2, _⟩ => rfl))

/-- On the extended reals the host's float sum over the middle axis of an `[m, a, b]` array is, at `(k, c)`, the
    initial value plus the sum of the entries `(k, ·, c)`. -/
theorem hostReduceAdd_mid {m a b : ℕ} (x : (⟨3, ![m, a, b]⟩ : Shape).Idx → EReal) (init : EReal)
    (h' : (⟨3, ![m, a, b]⟩ : Shape).ReducesTo [1] ⟨2, ![m, b]⟩) (h : (⟨3, ![m, a, b]⟩ : Shape).Reduces [1] ⟨2, ![m, b]⟩)
    (k : Fin m) (c : Fin b) :
    Ideal.hostReduceAdd h' x init (ix2 k c) = init + ∑ r : Fin a, x (ix3 k r c) := by
  refine (Ideal.hostReduceAdd_single h' h x init (ix2 k c)).trans ?_
  refine congrArg (init + ·) (Finset.sum_congr rfl fun r _ => congrArg x (funext fun ax => Fin.ext ?_))
  match ax with
  | ⟨0, _⟩ => rfl
  | ⟨1, _⟩ => rfl
  | ⟨2, _⟩ => rfl

/-- The f32 word of `-∞` is the bottom of the extended reals, so the maximum against it is the other operand. -/
theorem max_negInf_f32 (x : EReal) : max (Ideal.ofBits .f32 0xFF800000#32) x = x := by
  simp [Ideal.ofBits, Ideal.ieee]

end Cert.LibKeepdimsCols

end
-- ==== Proof.ColSmMax.lean ====
/-
  The column maximum on both sides. The kernel reduces the similarity matrix over its first axis with a maximum from
  `-∞`, lays the result as one row and repeats it down the rows; the reference reduces the rank-3 array over its middle
  axis with a maximum from `-∞`, takes one more maximum against `-∞` (the identity on the extended reals), and
  broadcasts the result back over the middle axis. At every entry both are the maximum of that entry's column.
-/
import proofs.«179597_j89472758710963_2_alg».proof.Proof.Gen.KernelIdeal.Skeleton
import proofs.«179597_j89472758710963_2_alg».proof.Proof.Gen.ReferenceIdeal.Read
import proofs.«179597_j89472758710963_2_alg».proof.Proof.ColSmSpec
import proofs.«179597_j89472758710963_2_alg».proof.Proof.LibKeepdimsCols
import Idealize.ShloMosaic.PureOps.Ideal.Laws
import Idealize.ShloMosaic.Lib.ValueIdx

noncomputable section

open scoped BigOperators

namespace Cert.ColSm

open Idealize.ShloMosaic Idealize.ShloMosaic.ValueIdx

/-- The kernel's column maximum of a matrix `E`, repeated down the rows. -/
def kmax (E : FVec Ideal Cert.KernelIdeal.S1024x1024 .f32) : FVec Ideal Cert.KernelIdeal.S1024x1024 .f32 :=
  broadcastTo Cert.KernelIdeal.S1024x1024
    (shapeCast Cert.KernelIdeal.S1x1024
      (multiReduction (F := Ideal) .maximumf [0] Cert.KernelIdeal.S1024 E 0xFF800000#32
        Cert.KernelIdeal.Gen.reduces_S1024x1024_S1024_2 (.inl rfl) rfl)
      Cert.KernelIdeal.Gen.shapeCasts_S1024_S1x1024)
    Cert.KernelIdeal.Gen.broadcasts_S1x1024_S1024x1024

/-- At `(i, j)` it is the maximum of column `j`. -/
theorem kmax_apply (E : FVec Ideal Cert.KernelIdeal.S1024x1024 .f32) (i j : Fin 1024) :
    kmax E (ix2 i j) = cmax (fun i j : Fin 1024 => E (ix2 i j)) j := by
  unfold kmax
  refine (Cert.LibKeepdimsCols.broadcastTo_shapeCast_row_apply _ _ _ i j).trans ?_
  exact Cert.LibKeepdimsCols.multiReduction_maximumf_cols E _ _ _ _ j

/-- The reference's broadcast column maximum at `(b, i, j)` is the maximum of column `j` of batch `b`'s
    similarity matrix. -/
theorem ref_max_apply (x0 x1 : (⟨Cert.ReferenceIdeal.S32x1024x1024, .f32⟩ : BufTy).Contents (Elt Ideal)) (b : Fin 32)
    (i j : Fin 1024) :
    Cert.ReferenceIdeal.Read.val_main_v17 (F := Ideal) x0 x1 (ix3 b i j)
      = cmax (fun i j : Fin 1024 => Cert.ReferenceIdeal.Read.val_main_v0 (F := Ideal) x0 x1 (ix3 b i j)) j := by
  rw [Cert.ReferenceIdeal.Read.val_main_v17_apply, Cert.ReferenceIdeal.Read.val_main_v16_apply,
    Cert.ReferenceIdeal.Read.val_main_v15_apply, Cert.ReferenceIdeal.Read.val_main_v14_apply,
    Cert.ReferenceIdeal.Read.val_main_cst_3_apply]
  have hidx : Cert.ReferenceIdeal.Read.idx_main_v16 (Cert.ReferenceIdeal.Read.idx_main_v17 (ix3 b i j)) = ix2 b j :=
    funext fun a => Fin.ext (by
      match a with
      | ⟨0, _⟩ => rfl
      | ⟨1, _⟩ => rfl)
  rw [hidx]
  refine (Cert.LibKeepdimsCols.max_negInf_f32 _).trans ?_
  unfold Cert.ReferenceIdeal.Read.val_main_v13
  exact Cert.LibKeepdimsCols.hostReduce_maximumf_mid (Cert.ReferenceIdeal.Read.val_main_v0 (F := Ideal) x0 x1) _
    Cert.ReferenceIdeal.Gen.reducesTo_S32x1024x1024_S32x1024_d1 (by decide) Cert.ReferenceIdeal.Gen.h_S_ b j

end Cert.ColSm

end
-- ==== Proof.ColSmSoft.lean ====
/-
  The column softmax on both sides: the exponential of an entry less its column's maximum, the sum of those
  exponentials down the column (the kernel's lane sum from a zero accumulator, the reference's host sum from the initial
  value zero), and their quotient. At every entry both sides are `csoft` of the similarity matrix.
-/
import proofs.«179597_j89472758710963_2_alg».proof.Proof.ColSmMax

noncomputable section

open scoped BigOperators

namespace Cert.ColSm

open Idealize.ShloMosaic Idealize.ShloMosaic.ValueIdx

/-! ## The kernel's side, as a function of the similarity matrix `E` -/

/-- The exponential of each entry less its column's maximum. -/
def kexp (E : FVec Ideal Cert.KernelIdeal.S1024x1024 .f32) : FVec Ideal Cert.KernelIdeal.S1024x1024 .f32 :=
  exp (subf E (kmax E))

theorem kexp_apply (E : FVec Ideal Cert.KernelIdeal.S1024x1024 .f32) (i j : Fin 1024) :
    kexp E (ix2 i j) = cexp (fun i j : Fin 1024 => E (ix2 i j)) i j := by
  show Ideal.exp (E (ix2 i j) - kmax E (ix2 i j)) = _
  rw [kmax_apply]
  rfl

/-- The column sums of those exponentials, repeated down the rows. -/
def ksum (E : FVec Ideal Cert.KernelIdeal.S1024x1024 .f32) : FVec Ideal Cert.KernelIdeal.S1024x1024 .f32 :=
  broadcastTo Cert.KernelIdeal.S1024x1024
    (shapeCast Cert.KernelIdeal.S1x1024
      (multiReduction (F := Ideal) .add [0] Cert.KernelIdeal.S1024 (kexp E) 0x00000000#32
        Cert.KernelIdeal.Gen.reduces_S1024x1024_S1024_2 (.inl rfl) rfl)
      Cert.KernelIdeal.Gen.shapeCasts_S1024_S1x1024)
    Cert.KernelIdeal.Gen.broadcasts_S1x1024_S1024x1024

theorem ksum_apply (E : FVec Ideal Cert.KernelIdeal.S1024x1024 .f32) (i j : Fin 1024) :
    ksum E (ix2 i j) = csum (fun i j : Fin 1024 => E (ix2 i j)) j := by
  unfold ksum csum
  refine (Cert.LibKeepdimsCols.broadcastTo_shapeCast_row_apply _ _ _ i j).trans ?_
  refine (Cert.LibKeepdimsCols.multiReduction_add_cols (kexp E) _ _ _ _ j).trans ?_
  exact Finset.sum_congr rfl fun r _ => kexp_apply E r j

/-- The quotient, in the format the second product reads (a format change is the identity on extended reals). -/
def ksoft (E : FVec Ideal Cert.KernelIdeal.S1024x1024 .f32) : FVec Ideal Cert.KernelIdeal.S1024x1024 .bf16 :=
  truncf .bf16 (divf (kexp E) (ksum E)) Cert.KernelIdeal.Gen.bitsLt_bf16_f32

theorem ksoft_apply (E : FVec Ideal Cert.KernelIdeal.S1024x1024 .f32) (i j : Fin 1024) :
    ksoft E (ix2 i j) = csoft (fun i j : Fin 1024 => E (ix2 i j)) i j := by
  show Ideal.div (kexp E (ix2 i j)) (ksum E (ix2 i j)) = _
  rw [kexp_apply, ksum_apply]
  rfl

/-! ## The reference's side -/

theorem ref_exp_apply (x0 x1 : (⟨Cert.ReferenceIdeal.S32x1024x1024, .f32⟩ : BufTy).Contents (Elt Ideal)) (b : Fin 32)
    (i j : Fin 1024) :
    Cert.ReferenceIdeal.Read.val_main_v19 (F := Ideal) x0 x1 (ix3 b i j)
      = cexp (fun i j : Fin 1024 => Cert.ReferenceIdeal.Read.val_main_v0 (F := Ideal) x0 x1 (ix3 b i j)) i j := by
  rw [Cert.ReferenceIdeal.Read.val_main_v19_apply, Cert.ReferenceIdeal.Read.val_main_v18_apply, ref_max_apply]
  rfl

theorem ref_sum_apply (x0 x1 : (⟨Cert.ReferenceIdeal.S32x1024x1024, .f32⟩ : BufTy).Contents (Elt Ideal)) (b : Fin 32)
    (i j : Fin 1024) :
    Cert.ReferenceIdeal.Read.val_main_v22 (F := Ideal) x0 x1 (ix3 b i j)
      = csum (fun i j : Fin 1024 => Cert.ReferenceIdeal.Read.val_main_v0 (F := Ideal) x0 x1 (ix3 b i j)) j := by
  rw [Cert.ReferenceIdeal.Read.val_main_v22_apply, Cert.ReferenceIdeal.Read.val_main_v21_apply]
  have hidx : Cert.ReferenceIdeal.Read.idx_main_v21 (Cert.ReferenceIdeal.Read.idx_main_v22 (ix3 b i j)) = ix2 b j :=
    funext fun a => Fin.ext (by
      match a with
      | ⟨0, _⟩ => rfl
      | ⟨1, _⟩ => rfl)
  rw [hidx, Cert.ReferenceIdeal.Read.val_main_v20_apply, Cert.ReferenceIdeal.Read.val_main_cst_4_apply]
  show Ideal.ofBits .f32 0x00000000#32 + _ = _
  rw [Ideal.ofBits_zero_f32, zero_add]
  unfold csum
  refine Finset.sum_congr rfl fun k _ => ?_
  have hk : Cert.ReferenceIdeal.Read.idx_main_v20 (ix2 b j) k = ix3 b k j := funext fun a => Fin.ext (by
    match a with
    | ⟨0, _⟩ => rfl
    | ⟨1, _⟩ => rfl
    | ⟨2, _⟩ => rfl)
  rw [hk]
  exact ref_exp_apply x0 x1 b k j

/-- The reference's column softmax at `(b, i, j)`. -/
theorem ref_soft_apply (x0 x1 : (⟨Cert.ReferenceIdeal.S32x1024x1024, .f32⟩ : BufTy).Contents (Elt Ideal)) (b : Fin 32)
    (i j : Fin 1024) :
    Cert.ReferenceIdeal.Read.val_main_v23 (F := Ideal) x0 x1 (ix3 b i j)
      = csoft (fun i j : Fin 1024 => Cert.ReferenceIdeal.Read.val_main_v0 (F := Ideal) x0 x1 (ix3 b i j)) i j := by
  rw [Cert.ReferenceIdeal.Read.val_main_v23_apply, ref_exp_apply, ref_sum_apply]
  rfl

end Cert.ColSm

end
-- ==== Proof.ColSmOut.lean ====
/-
  The column-softmax attention output on both sides, and the statement: the reference's second result is `attnH`.

  The kernel's last product contracts the FIRST axis of the softmax with the first axis of `P` into a zero accumulator:
  at `(j, d)` it is `Σ_i soft[i, j] · P[i, d]`, and the cast to `[1, 1024, 1024]` only adds a unit axis. The
  reference's last product contracts the middle axes of the rank-3 softmax and of the first argument, batch by batch:
  at `(b, j, d)` it is `Σ_i soft[b, i, j] · A0[b, i, d]`. With the two softmaxes equal to `csoft` of the similarity
  matrix (the previous modules), both are `outH` of batch `b`'s two matrices.
-/
import proofs.«179597_j89472758710963_2_alg».proof.Proof.ColSmSim
import proofs.«179597_j89472758710963_2_alg».proof.Proof.ColSmSoft
import Idealize.ShloMosaic.Lib.ValueLayout

noncomputable section

open scoped BigOperators

namespace Cert.ColSm

open Idealize.ShloMosaic Idealize.ShloMosaic.ValueIdx

/-- The last product's dimension numbers: contract axis 0 of both operands. -/
abbrev dotOut := Cert.KernelIdeal.dot_S1024x1024_S1024x1024_S1024x1024_0_0_1_1_n_n

theorem dotOut_lhs1 (y : Cert.KernelIdeal.S1024x1024.Idx) (q : dotOut.contr.Idx) : (dotOut.lhsIdx y q 1).val = (y 0).val := by
  unfold DotDims.lhsIdx
  rw [dif_neg (show ¬(1 : Fin Cert.KernelIdeal.S1024x1024.rank) ∈ dotOut.lhsBatch by decide),
    dif_pos (show (1 : Fin Cert.KernelIdeal.S1024x1024.rank) ∈ dotOut.lhsNonContracting by decide)]
  rfl

theorem dotOut_rhs1 (y : Cert.KernelIdeal.S1024x1024.Idx) (q : dotOut.contr.Idx) : (dotOut.rhsIdx y q 1).val = (y 1).val := by
  unfold DotDims.rhsIdx
  rw [dif_neg (show ¬(1 : Fin Cert.KernelIdeal.S1024x1024.rank) ∈ dotOut.rhsBatch by decide),
    dif_pos (show (1 : Fin Cert.KernelIdeal.S1024x1024.rank) ∈ dotOut.rhsNonContracting by decide)]
  rfl

/-- The body's second output term is the last product of the column softmax of the first product with `P`, with a unit
    axis added. -/
theorem pay5_eq (P H : FVec Ideal Cert.KernelIdeal.S1024x1024 .bf16) :
    Cert.KernelIdeal.Gen.k0_pay5 (F := Ideal) P H
      = shapeCast Cert.KernelIdeal.S1x1024x1024
          (matmul dotOut none (ksoft (Cert.KernelIdeal.Gen.k0_pay3 (F := Ideal) P H)) P
            (constant (F := Ideal) Cert.KernelIdeal.S1024x1024 .f32 0x00000000#32))
          Cert.KernelIdeal.Gen.shapeCasts_S1024x1024_S1x1024x1024 := rfl

/-- The body's second output term at `(0, j, d)` is `Σ_i csoft (sim P H) i j · P[i, d]`. -/
theorem pay5_apply (P H : FVec Ideal Cert.KernelIdeal.S1024x1024 .bf16) (j d : Fin 1024) :
    Cert.KernelIdeal.Gen.k0_pay5 (F := Ideal) P H (ix3 (0 : Fin 1) j d) = outH P H j d := by
  rw [pay5_eq]
  refine (shapeCast_ab_1ab_apply _ _ (0 : Fin 1) j d).trans ?_
  refine (Ideal.matmul_constant_zero_apply dotOut none (ksoft (Cert.KernelIdeal.Gen.k0_pay3 (F := Ideal) P H)) P (ix2 j d)).trans ?_
  rw [← Equiv.sum_comp (contrEquiv1 dotOut 1024 rfl rfl).symm]
  unfold outH
  refine Finset.sum_congr rfl fun k _ => ?_
  have hk := contrEquiv1_symm_val dotOut 1024 rfl rfl k
  have el : dotOut.lhsIdx (ix2 j d) ((contrEquiv1 dotOut 1024 rfl rfl).symm k) = ix2 k j := funext fun a => Fin.ext (by
    match a with
    | ⟨0, _⟩ => exact (dotOut.lhsIdx_val_of_single rfl _ _).trans hk
    | ⟨1, _⟩ => exact dotOut_lhs1 _ _)
  have er : dotOut.rhsIdx (ix2 j d) ((contrEquiv1 dotOut 1024 rfl rfl).symm k) = ix2 k d := funext fun a => Fin.ext (by
    match a with
    | ⟨0, _⟩ => exact (dotOut.rhsIdx_val_of_single rfl _ _).trans hk
    | ⟨1, _⟩ => exact dotOut_rhs1 _ _)
  rw [el, er, ksoft_apply, pay3_fun]

/-- The reference's second result at `(b, j, d)` is the same sum for batch `b`'s two matrices. -/
theorem ref_out_apply (x0 x1 : (⟨Cert.ReferenceIdeal.S32x1024x1024, .f32⟩ : BufTy).Contents (Elt Ideal)) (b : Fin 32)
    (j d : Fin 1024) :
    Cert.ReferenceIdeal.Read.val_main_v24 (F := Ideal) x0 x1 (ix3 b j d)
      = outH (Cert.AttnBlock.batch x0 b) (Cert.AttnBlock.batch x1 b) j d := by
  rw [Cert.ReferenceIdeal.Read.val_main_v24_apply]
  unfold outH
  refine Finset.sum_congr rfl fun k _ => ?_
  have el : Cert.ReferenceIdeal.Read.lidx_main_v24 (ix3 b j d) k = ix3 b k j := funext fun a => Fin.ext (by
    match a with
    | ⟨0, _⟩ => rfl
    | ⟨1, _⟩ => rfl
    | ⟨2, _⟩ => rfl)
  have er : Cert.ReferenceIdeal.Read.ridx_main_v24 (ix3 b j d) k = ix3 b k d := funext fun a => Fin.ext (by
    match a with
    | ⟨0, _⟩ => rfl
    | ⟨1, _⟩ => rfl
    | ⟨2, _⟩ => rfl)
  rw [el, er, ref_soft_apply, ref_sim_fun]
  rfl

/-- THE STATEMENT: on the extended reals, for all argument arrays, the reference's second result (its stage
    `val_main_v24`, which the reference run's composed term is by `val_main_v24_eq`) is the column-softmax attention
    `attnH` of the two arrays. -/
theorem ref_h_eq (x0 x1 : (⟨Cert.ReferenceIdeal.S32x1024x1024, .f32⟩ : BufTy).Contents (Elt Ideal)) :
    Cert.ReferenceIdeal.Read.val_main_v24 (F := Ideal) x0 x1 = Cert.AttnBlock.attnH x0 x1 := by
  funext idx
  obtain ⟨b, j, d, rfl⟩ : ∃ (b : Fin 32) (j d : Fin 1024), idx = ix3 b j d := ⟨idx 0, idx 1, idx 2, eq_ix3 idx⟩
  rw [ref_out_apply]
  show _ = Cert.KernelIdeal.Gen.k0_pay5 (F := Ideal) (Cert.AttnBlock.batch x0 b) (Cert.AttnBlock.batch x1 b) (ix3 (0 : Fin 1) j d)
  exact (pay5_apply (Cert.AttnBlock.batch x0 b) (Cert.AttnBlock.batch x1 b) j d).symm

end Cert.ColSm

end
-- ==== Proof.lean ====
/-
  Dual softmax attention: the kernel against its reference, on the extended reals.

  The kernel streams each batch's two `[1024, 1024]` inputs, 128 feature columns at a time, into two scratch matrices,
  and at the batch's last chunk computes `e = p · hᵀ`, the row softmax of `e` times `h` and the column softmax of `e`,
  transposed, times `p`. The reference computes the same two products with whole-array operations. Narrowing to
  bf16 is the identity on the extended reals, a product into a zero accumulator is the plain sum, and the maximum of
  `-∞` and `x` is `x`, so both programs compute one function of the arguments, index by index; no finiteness of the
  inputs is used. The three frames: the two kernel programs by the run over the grid with the scratch matrices
  carried from point to point, the reference by its run with the results dropped.
-/
import proofs.«179597_j89472758710963_2_alg».proof.Defs
import proofs.«179597_j89472758710963_2_alg».proof.Proof.Gen.Kernel
import proofs.«179597_j89472758710963_2_alg».proof.Proof.Gen.KernelIdeal
import proofs.«179597_j89472758710963_2_alg».proof.Proof.Gen.ReferenceIdeal
import proofs.«179597_j89472758710963_2_alg».proof.Proof.Gen.Pre_finite_inputs
import proofs.«179597_j89472758710963_2_alg».proof.Proof.Gen.ReferenceIdeal.Run
import proofs.«179597_j89472758710963_2_alg».proof.Proof.Gen.ReferenceIdeal.Read
import proofs.«179597_j89472758710963_2_alg».proof.Proof.BitsFillRun
import proofs.«179597_j89472758710963_2_alg».proof.Proof.IdealAttnArrays
import proofs.«179597_j89472758710963_2_alg».proof.Proof.RowSmOut
import proofs.«179597_j89472758710963_2_alg».proof.Proof.ColSmOut
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.SlabFill.frame m ρ

theorem frame_kernel_ideal : Cert.frame_KernelIdeal (hKernelIdeal := Cert.KernelIdeal.Gen.facts) (hPre_finite_inputs := Cert.Pre_finite_inputs.Gen.facts) :=
  fun m ρ _ => Cert.KernelIdeal.SlabFill.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories that agree on the arguments both programs end with each result array at the attention function
    of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, Cert.KernelIdeal.AttnArrays.run_attn m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v12_eq, Cert.RowSm.ref_p_eq, (hagree c).1, (hagree c).2]
  · rw [Cert.ReferenceIdeal.Read.val_main_v24_eq, Cert.ColSm.ref_h_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
